-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S10000x1 : Shape := ⟨2, ![10000, 1]⟩
abbrev S400 : Shape := ⟨1, ![400]⟩
abbrev S400x1 : Shape := ⟨2, ![400, 1]⟩

abbrev nBuf : Space → Nat
  | .hbm => 6
  | .vmem => 10
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S400x128, .f32⟩
  | .local _ .vmem, ⟨3, _⟩ => ⟨S400x128, .f32⟩
  | .local _ .vmem, ⟨4, _⟩ => ⟨S128x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | .local _ .vmem, ⟨9, _⟩ => ⟨S10000x1, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v14 : BitVec 32 := Scalar.muli arg1 c400_i32
  let v15 : Index := Scalar.indexCast v14
  let c0_5 : Index := 0#32
  ![v15.toNat, 0]
def k0_off2 (i : grid0.Coords) : Fin 2 → Nat :=
  let arg1 : BitVec 32 := BitVec.ofNat 32 (i 1).val
  let c400_i32_11 : BitVec 32 := 400#32
  let v24 : BitVec 32 := Scalar.muli arg1 c400_i32_11
  let v25 : Index := Scalar.indexCast v24
  let c0_12 : Index := 0#32
  ![v25.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 2 → Nat :=
  let arg1 : BitVec 32 := BitVec.ofNat 32 (i 1).val
  let c400_i32 : BitVec 32 := 400#32
  let v9 : BitVec 32 := Scalar.muli arg1 c400_i32
  let v10 : Index := Scalar.indexCast v9
  let c0_5 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  h_S400x1 : 0 < S400x1.numel
  shapeCasts_S400x1_S400x1 : S400x1.ShapeCasts S400x1
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  broadcasts_S400x1_S400x128 : S400x1.Broadcasts S400x128
  shapeCasts_S400x128_S400x128 : S400x128.ShapeCasts S400x128
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  dot_S400x128_S128x128_S400x128_1_1_0_0_n_n_wf : DotDims.WF S400x128 S128x128 S400x128 [1] [1] [0] [0] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ (k0_h1 : k0_cond1 i = 1#1), ∀ a, (k0_off1 i) a + S400x1.size a ≤ S10000x1.size a
  k0_off2_inb : ∀ i : grid0.Coords, ∀ (k0_h1 : k0_cond1 i = 1#1), ∀ a, (k0_off2 i) a + S400x128.size a ≤ S10000x128.size a
  k0_off3_inb : ∀ i : grid0.Coords, ∀ (k0_h2 : k0_cond2 i = 1#1), ∀ a, (k0_off3 i) a + S400x1.size a ≤ S10000x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000, .f32⟩
  | .hbm, ⟨6, _⟩ => ⟨S_, .f32⟩
  | .hbm, ⟨7, _⟩ => ⟨S10000, .f32⟩
  | .hbm, ⟨8, _⟩ => ⟨S10000, .f32⟩
  | .hbm, ⟨9, _⟩ => ⟨S10000, .f32⟩
  | .hbm, ⟨10, _⟩ => ⟨S_, .f32⟩
  | .hbm, ⟨11, _⟩ => ⟨S10000, .f32⟩
  | .hbm, ⟨12, _⟩ => ⟨S10000, .i1⟩
  | .hbm, ⟨13, _⟩ => ⟨S_, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000x1, .f32⟩
  | .hbm, ⟨18, _⟩ => ⟨S10000x10000, .f32⟩
  | .hbm, ⟨19, _⟩ => ⟨S10000x10000, .f32⟩
  | .hbm, ⟨20, _⟩ => ⟨S1x10000, .f32⟩
  | .hbm, ⟨21, _⟩ => ⟨S10000x10000, .f32⟩
  | .hbm, ⟨22, _⟩ => ⟨S10000x10000, .f32⟩
  | .hbm, ⟨23, _⟩ => ⟨S10000x128, .f32⟩
  | .hbm, ⟨24, _⟩ => ⟨S128x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.SchedBits.lean ====
/-
  The grid of this layer's one launch has 50 points: 25 row blocks of 400 rows, walked twice. The first walk (points
  0–24) computes each block's degree factors and scaled projections; the second (points 25–49) multiplies the
  adjacency block into the projections. Here: which branch a point takes, which 400 rows of the two carried buffers it
  addresses, and at which points the output block is left alone or written back — each decided over the 50 points.
-/
import proofs.«159945_g69672959476101_cont_9to1_m_1023_4_alg».proof.Proof.Gen.Kernel.Frame
import proofs.«159945_g69672959476101_cont_9to1_m_1023_4_alg».proof.Proof.Gen.Kernel.Skeleton
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The first branch (degree factors and projections) is taken exactly at the first 25 points. -/
theorem cond1_iff : ∀ t : Fin cfg0.N, k0_cond1 (grid0.coords t) = 1#1 ↔ t.val < 25 :=
  (by decide +kernel : ∀ t : Fin grid0.N, k0_cond1 (grid0.coords t) = 1#1 ↔ t.val < 25)

/-- The second branch (the product with the adjacency block) is taken exactly at the last 25 points. -/
theorem cond2_iff : ∀ t : Fin cfg0.N, k0_cond2 (grid0.coords t) = 1#1 ↔ 25 ≤ t.val :=
  (by decide +kernel : ∀ t : Fin grid0.N, k0_cond2 (grid0.coords t) = 1#1 ↔ 25 ≤ t.val)

/-- Point `t` addresses rows `400 · (t mod 25)` onwards of the factor column, when it stores them … -/
theorem off1_eq : ∀ t : Fin cfg0.N, k0_off1 (grid0.coords t) = ![400 * (t.val % 25), 0] :=
  (by decide +kernel : ∀ t : Fin grid0.N, k0_off1 (grid0.coords t) = ![400 * (t.val % 25), 0])

/-- … of the projections, when it stores them … -/
theorem off2_eq : ∀ t : Fin cfg0.N, k0_off2 (grid0.coords t) = ![400 * (t.val % 25), 0] :=
  (by decide +kernel : ∀ t : Fin grid0.N, k0_off2 (grid0.coords t) = ![400 * (t.val % 25), 0])

/-- … and of the factor column again, when the second walk loads them back. -/
theorem off3_eq : ∀ t : Fin cfg0.N, k0_off3 (grid0.coords t) = ![400 * (t.val % 25), 0] :=
  (by decide +kernel : ∀ t : Fin grid0.N, k0_off3 (grid0.coords t) = ![400 * (t.val % 25), 0])

/-- The four inputs are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- During the first walk the output block is idle and is not written back. -/
theorem idle4 : ∀ t : Fin cfg0.N, t.val < 25 → cfg0.idle 4 (grid0.coords t) = true := by decide +kernel
theorem noflush4 : ∀ t : Fin cfg0.N, t.val < 25 → (cfg0.win 4).flush t = false :=
  (by decide +kernel : ∀ t : Fin grid0.N, t.val < 25 → win0_4.flush t = false)

/-- During the second walk it is live, and every point writes its block back. -/
theorem live4 : ∀ t : Fin cfg0.N, 25 ≤ t.val → cfg0.idle 4 (grid0.coords t) = false := by decide +kernel
theorem flush4 : ∀ t : Fin cfg0.N, 25 ≤ t.val → (cfg0.win 4).flush t = true :=
  (by decide +kernel : ∀ t : Fin grid0.N, 25 ≤ t.val → win0_4.flush t = true)

end Cert.Kernel.Body

end
-- ==== Proof.BodyRunABits.lean ====
/-
  The kernel body at a point of the FIRST walk (branch 1 taken, branch 2 not), on whole buffers at known contents.

  It reads the adjacency block, the feature block and the weights, and stores the block's 400 degree factors into
  rows `off1` onwards of the factor column and its 400 × 128 scaled projections into rows `off2` onwards of the
  projection buffer; every other row of the two carried buffers keeps what it held, and the output block is not
  touched. What is stored is named by the body's arithmetic as pure terms of what was loaded.
-/
import proofs.«159945_g69672959476101_cont_9to1_m_1023_4_alg».proof.Proof.Gen.Kernel.Frame
import proofs.«159945_g69672959476101_cont_9to1_m_1023_4_alg».proof.Proof.Gen.Kernel.Skeleton
import proofs.«159945_g69672959476101_cont_9to1_m_1023_4_alg».proof.Proof.SchedBits
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of a rank-2 buffer, as a function. -/
private theorem zero2 : (![0, 0] : Fin 2 → ℕ) = fun _ => 0 := by
  funext a; fin_cases a <;> rfl

set_option maxHeartbeats 1000000 in
/-- THE FIRST WALK's body. The two carried buffers come as raw contents `f7`, `f8` and go back with ONE store each on
    top: the projections `P7` through rows `off2`, the factors `P8` through rows `off1`; the output block `xi4` is
    handed back as found. -/
theorem runA (c : Dev nD) (i : grid0.Coords) (arg2 : Memref sig .tc .vmem S400x10000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x1 .f32) (harg8 : arg8.IsWhole)
    (hc0 : k0_cond1 i = 1#1) (hc1 : ¬ k0_cond2 i = 1#1)
    (x0 : Vec F S400x10000 .f32) (x1 : Vec F S400x128 .f32) (x2 : Vec F S128x128 .f32) (x3 : Vec F S1x128 .f32)
    (xi4 : Vec F S400x128 .f32) (f7 : arg7.view.ty.Contents (Elt F)) (f8 : arg8.view.ty.Contents (Elt F)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (arg7.view.loc (c : Thread nD τ) ↦[arg7.view.set]{fullShare} f7) ∗ (arg8.view.loc (c : Thread nD τ) ↦[arg8.view.set]{fullShare} f8)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ P7, ⌜P7 = k0_pay3 x0 x1 x2⌝ ∗ arg7.view.loc (c : Thread nD τ) ↦[arg7.view.set]{fullShare} arg7.view.writes (Elt F) f7 [⟨Rect.unit (s := S10000x128) (k0_off2 i) S400x128.size (k0_off2_inb i hc0), P7⟩])
                ∗ (∃ P8, ⌜P8 = k0_pay2 x0⌝ ∗ arg8.view.loc (c : Thread nD τ) ↦[arg8.view.set]{fullShare} arg8.view.writes (Elt F) f8 [⟨Rect.unit (s := S10000x1) (k0_off1 i) S400x1.size (k0_off1_inb i hc0), P8⟩])) -∗ K ⟨⟩))
          ⊢ wp frame (wpE (defs₀ (F := F)) Variants.none c none) E (cc0__gcn_kernel i arg2 harg2 arg3 harg3 arg4 harg4 arg5 harg5 arg6 harg6 arg7 harg7 arg8 harg8) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, HS0, HS1, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]
    · iexists _; isplitr; swap; · iexact HS0
      ipureintro
      simp only [View.readAt_eq_ld, harg2.read_unread, harg3.read_unread, harg4.read_unread, View.ld_unit_zero (S := S400x10000) zero2, View.ld_unit_zero (S := S400x128) zero2, View.ld_unit_zero (S := S128x128) zero2]
    iexists _; isplitr; swap; · iexact HS1
    ipureintro
    simp only [View.readAt_eq_ld, harg2.read_unread, View.ld_unit_zero (S := S400x10000) zero2]

end Cert.Kernel.Body

end
-- ==== Proof.BodyRunBBits.lean ====
/-
  The kernel body at a point of the SECOND walk (branch 2 taken, branch 1 not), on whole buffers at known contents.

  It reads the adjacency block, the WHOLE projection buffer, the 400 rows of the factor column the point addresses
  and the bias, and overwrites the whole output block with the body's last term of them; the two carried buffers
  are only read.
-/
import proofs.«159945_g69672959476101_cont_9to1_m_1023_4_alg».proof.Proof.Gen.Kernel.Frame
import proofs.«159945_g69672959476101_cont_9to1_m_1023_4_alg».proof.Proof.Gen.Kernel.Skeleton
import proofs.«159945_g69672959476101_cont_9to1_m_1023_4_alg».proof.Proof.SchedBits
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of a rank-2 buffer, as a function. -/
private theorem zero2 : (![0, 0] : Fin 2 → ℕ) = fun _ => 0 := by
  funext a; fin_cases a <;> rfl

/-- One store through the whole of a buffer, whatever it held, reads back as the stored value. -/
theorem read_store_whole {S : Shape} {e : EltTy} {κ : Kind} {sp : Space} (v : View sig κ sp S e) (f : v.ty.Contents (Elt F))
    {off : Fin S.rank → ℕ} (h : off = fun _ => 0) (inb : ∀ a, off a + S.size a ≤ S.size a)
    (w : (Rect.unit off S.size inb).shape.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- What the second walk stores into the output block at grid coordinates `i`: the body's last term of the adjacency
    block `x0`, the whole projection buffer `d7`, the 400 rows of the factor column `d8` that the point addresses, and
    the bias `x3`. -/
def outBlk (i : grid0.Coords) (hc1 : k0_cond2 i = 1#1) (x0 : Vec F S400x10000 .f32) (x3 : Vec F S1x128 .f32)
    (d7 : Vec F S10000x128 .f32) (d8 : Vec F S10000x1 .f32) : Vec F S400x128 .f32 :=
  k0_pay4 x0 d7 (View.ld d8 (Rect.unit (s := S10000x1) (k0_off3 i) S400x1.size (k0_off3_inb i hc1))) x3

set_option maxHeartbeats 1000000 in
/-- THE SECOND WALK's body. The carried buffers are held at raw contents `f7`, `f8` and come back untouched; the output
    block, whatever it held, ends at `outBlk` of what the two buffers read. -/
theorem runB (c : Dev nD) (i : grid0.Coords) (arg2 : Memref sig .tc .vmem S400x10000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x1 .f32) (harg8 : arg8.IsWhole)
    (hc0 : ¬ k0_cond1 i = 1#1) (hc1 : k0_cond2 i = 1#1)
    (x0 : Vec F S400x10000 .f32) (x1 : Vec F S400x128 .f32) (x2 : Vec F S128x128 .f32) (x3 : Vec F S1x128 .f32)
    (f7 : arg7.view.ty.Contents (Elt F)) (f8 : arg8.view.ty.Contents (Elt F)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (arg7.view.loc (c : Thread nD τ) ↦[arg7.view.set]{fullShare} f7) ∗ (arg8.view.loc (c : Thread nD τ) ↦[arg8.view.set]{fullShare} f8)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (outBlk i hc1 x0 x3 (arg7.view.read (Elt F) f7) (arg8.view.read (Elt F) f8))
                ∗ (arg7.view.loc (c : Thread nD τ) ↦[arg7.view.set]{fullShare} f7) ∗ (arg8.view.loc (c : Thread nD τ) ↦[arg8.view.set]{fullShare} f8)) -∗ K ⟨⟩))
          ⊢ wp frame (wpE (defs₀ (F := F)) Variants.none c none) E (cc0__gcn_kernel i arg2 harg2 arg3 harg3 arg4 harg4 arg5 harg5 arg6 harg6 arg7 harg7 arg8 harg8) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, HS0, HS1, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_store_whole arg6.view f4 zero2 _ _).trans ?_
      unfold outBlk
      simp only [View.readAt_eq_ld, harg2.read_unread, harg5.read_unread, View.ld_unit_zero (S := S400x10000) zero2, View.ld_unit_zero (S := S10000x128) zero2, View.ld_unit_zero (S := S1x128) zero2]
    isplitl [HS0]
    · iexact HS0
    iexact HS1

end Cert.Kernel.Body

end
-- ==== Proof.BodyDataBits.lean ====
/-
  The proof data of the layer's one launch, and the body obligation at every point.

  The two buffers the kernel carries between points are filled 400 rows at a time during the first walk: after `k`
  points (`k ≤ 25`) rows `0 … 400k − 1` of the projection buffer hold, row block by row block, the scaled projections
  computed from that block's slices of the arguments (`Hfull`), and the same rows of the factor column hold the
  blocks' degree factors (`Nfull`); the rows above hold whatever they held. From point 25 on both are complete and
  only read. The output block is left alone during the first walk (idle, not written back) and at point `t ≥ 25` is
  overwritten with the body's last term of the adjacency block, the complete `Hfull`, rows `400 (t − 25) …` of
  `Nfull`, and the bias (`outAt`).
-/
import proofs.«159945_g69672959476101_cont_9to1_m_1023_4_alg».proof.Proof.Gen.Kernel.Frame
import proofs.«159945_g69672959476101_cont_9to1_m_1023_4_alg».proof.Proof.Gen.Kernel.Skeleton
import proofs.«159945_g69672959476101_cont_9to1_m_1023_4_alg».proof.Proof.SchedBits
import proofs.«159945_g69672959476101_cont_9to1_m_1023_4_alg».proof.Proof.BodyRunABits
import proofs.«159945_g69672959476101_cont_9to1_m_1023_4_alg».proof.Proof.BodyRunBBits
import Idealize.ShloMosaic.Lib.WritesUnit
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- Each window's current staging buffer at point `t`, and that it is a whole buffer. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The projection buffer and the factor column: whole buffers of the kernel's own. -/
abbrev scH : Memref sig .tc .vmem S10000x128 .f32 := Memref.whole cc0_scratch0
abbrev scN : Memref sig .tc .vmem S10000x1 .f32 := Memref.whole cc0_scratch1

/-- The launch's invariant as it stands — the two carried buffers at anything, and the generator register. -/
theorem PhiA_eq (c : Dev nD) :
    (Pipeline.ΦA spec0 c : sProp 𝕄)
      = iprop(iprop((∃ d, owns (c : Thread nD τ) scH fullShare d) ∗ (∃ d, owns (c : Thread nD τ) scN fullShare d)) ∗ (∃ r, prngReg c r)) := by
  unfold Pipeline.ΦA; rw [scopedRest0_eq]; simp only [scH, scN, owns_whole]; try rfl

/-! ## What the carried buffers end the first walk with -/

/-- The grid point of the first walk that fills the row block holding row `r`. -/
def blkPt (r : ℕ) (hr : r < 10000) : Fin cfg0.N := ⟨r / 400, by
  have hN : cfg0.N = 50 := N_0
  rw [hN]; omega⟩

theorem blkPt_val (r : ℕ) (hr : r < 10000) : (blkPt r hr).val = r / 400 := rfl

/-- Row `r`'s place inside its block of 400 rows, with a column. -/
def locIdx {n : ℕ} (r : ℕ) (q : Fin n) : (⟨2, ![400, n]⟩ : Shape).Idx :=
  ValueIdx.ix2 (⟨r % 400, Nat.mod_lt _ (by decide)⟩ : Fin 400) q

/-- The scaled projections of the row block that point `j` of the first walk handles: the body's second store, of the
    point's adjacency, feature and weight blocks. -/
def payH (c : Dev nD) (j : Fin cfg0.N) : Vec F S400x128 .f32 := k0_pay3 (iblk m c 0 j) (iblk m c 1 j) (iblk m c 2 j)

/-- The degree factors of that row block: the body's first store, of the point's adjacency block. -/
def payN (c : Dev nD) (j : Fin cfg0.N) : Vec F S400x1 .f32 := k0_pay2 (iblk m c 0 j)

/-- The complete projection buffer: row `r` holds row `r mod 400` of the scaled projections of block `r / 400`. -/
def Hfull (c : Dev nD) : Vec F S10000x128 .f32 := fun y =>
  payH m c (blkPt (y 0).val (ValueIdx.idx2_lt0 y)) (locIdx (y 0).val (⟨(y 1).val, ValueIdx.idx2_lt1 y⟩ : Fin 128))

/-- The complete factor column, likewise. -/
def Nfull (c : Dev nD) : Vec F S10000x1 .f32 := fun y =>
  payN m c (blkPt (y 0).val (ValueIdx.idx2_lt0 y)) (locIdx (y 0).val (⟨(y 1).val, ValueIdx.idx2_lt1 y⟩ : Fin 1))

/-- After `k` points the rows below `400 · min k 25` of the two carried buffers are final. -/
def RowsDone (c : Dev nD) (k : ℕ) (d7 : Vec F S10000x128 .f32) (d8 : Vec F S10000x1 .f32) : Prop :=
  (∀ y : S10000x128.Idx, (y 0).val < 400 * min k 25 → d7 y = Hfull m c y)
    ∧ ∀ y : S10000x1.Idx, (y 0).val < 400 * min k 25 → d8 y = Nfull m c y

/-- Before any point nothing is claimed. -/
theorem rowsDone_zero (c : Dev nD) (d7 : Vec F S10000x128 .f32) (d8 : Vec F S10000x1 .f32) : RowsDone m c 0 d7 d8 :=
  ⟨fun y h => absurd h (by simp), fun y h => absurd h (by simp)⟩

/-- From point 25 on the buffers ARE the complete ones. -/
theorem rowsDone_full (c : Dev nD) (k : ℕ) (hk : 25 ≤ k) (d7 : Vec F S10000x128 .f32) (d8 : Vec F S10000x1 .f32)
    (h : RowsDone m c k d7 d8) : d7 = Hfull m c ∧ d8 = Nfull m c := by
  have e : 400 * min k 25 = 10000 := by rw [Nat.min_eq_right hk]
  exact ⟨funext fun y => h.1 y (by rw [e]; exact ValueIdx.idx2_lt0 y), funext fun y => h.2 y (by rw [e]; exact ValueIdx.idx2_lt0 y)⟩

/-- and stay so. -/
theorem rowsDone_of_full (c : Dev nD) (k : ℕ) : RowsDone m c k (Hfull m c) (Nfull m c) :=
  ⟨fun _ _ => rfl, fun _ _ => rfl⟩

/-- THE STEP of the first walk. Point `t < 25` stores its block's projections through rows `400 t …` of the projection
    buffer and its factors through the same rows of the factor column: a row of that block now reads the stored value
    at its place in the block, which is what `Hfull` / `Nfull` say of it (its block is `t`); a row below reads what it
    read before, final already. -/
theorem rowsDone_step (c : Dev nD) (t : Fin cfg0.N) (ht : t.val < 25) (hc0 : k0_cond1 (grid0.coords t) = 1#1)
    (f7 : scH.view.ty.Contents (Elt F)) (f8 : scN.view.ty.Contents (Elt F))
    (h : RowsDone m c t.val (scH.view.read (Elt F) f7) (scN.view.read (Elt F) f8)) :
    RowsDone m c (t.val + 1)
      (scH.view.read (Elt F) (scH.view.writes (Elt F) f7 [⟨Rect.unit (s := S10000x128) (k0_off2 (grid0.coords t)) S400x128.size (k0_off2_inb (grid0.coords t) hc0), payH m c t⟩]))
      (scN.view.read (Elt F) (scN.view.writes (Elt F) f8 [⟨Rect.unit (s := S10000x1) (k0_off1 (grid0.coords t)) S400x1.size (k0_off1_inb (grid0.coords t) hc0), payN m c t⟩])) := by
  have hmod : t.val % 25 = t.val := Nat.mod_eq_of_lt ht
  have hmin : min (t.val + 1) 25 = t.val + 1 := Nat.min_eq_left (by omega)
  have hmin' : min t.val 25 = t.val := Nat.min_eq_left (by omega)
  have ho2 : k0_off2 (grid0.coords t) = ![400 * t.val, 0] := by rw [off2_eq t, hmod]
  have ho1 : k0_off1 (grid0.coords t) = ![400 * t.val, 0] := by rw [off1_eq t, hmod]
  refine ⟨fun y hy => ?_, fun y hy => ?_⟩
  · rw [hmin] at hy
    by_cases hlo : 400 * t.val ≤ (y 0).val
    · have e : blkPt (y 0).val (ValueIdx.idx2_lt0 y) = t := Fin.ext (by rw [blkPt_val]; omega)
      rw [View.read_writes_cons_rows_of_mem scH.view f7 (k0_off2_inb (grid0.coords t) hc0) (payH m c t) [] y
        (locIdx (y 0).val (⟨(y 1).val, ValueIdx.idx2_lt1 y⟩ : Fin 128)) ho2
        (by show (y 0).val = 400 * t.val + (y 0).val % 400; omega) rfl]
      unfold Hfull
      exact congrArg (fun j => payH m c j (locIdx (y 0).val (⟨(y 1).val, ValueIdx.idx2_lt1 y⟩ : Fin 128))) e.symm
    · rw [View.read_writes_cons_rows_of_not_mem scH.view f7 (k0_off2_inb (grid0.coords t) hc0) (payH m c t) [] y ho2
        (show S400x128.size (0 : Fin 2) = 400 from rfl) (Or.inl (by omega)), View.writes_nil]
      exact h.1 y (by rw [hmin']; omega)
  · rw [hmin] at hy
    by_cases hlo : 400 * t.val ≤ (y 0).val
    · have e : blkPt (y 0).val (ValueIdx.idx2_lt0 y) = t := Fin.ext (by rw [blkPt_val]; omega)
      rw [View.read_writes_cons_rows_of_mem scN.view f8 (k0_off1_inb (grid0.coords t) hc0) (payN m c t) [] y
        (locIdx (y 0).val (⟨(y 1).val, ValueIdx.idx2_lt1 y⟩ : Fin 1)) ho1
        (by show (y 0).val = 400 * t.val + (y 0).val % 400; omega) rfl]
      unfold Nfull
      exact congrArg (fun j => payN m c j (locIdx (y 0).val (⟨(y 1).val, ValueIdx.idx2_lt1 y⟩ : Fin 1))) e.symm
    · rw [View.read_writes_cons_rows_of_not_mem scN.view f8 (k0_off1_inb (grid0.coords t) hc0) (payN m c t) [] y ho1
        (show S400x1.size (0 : Fin 2) = 400 from rfl) (Or.inl (by omega)), View.writes_nil]
      exact h.2 y (by rw [hmin']; omega)

/-! ## The proof data -/

/-- What the second walk leaves in the output block at point `t` (at a point of the first walk nothing reads this
    value: the block is idle there and is not written back). -/
def outAt (c : Dev nD) (t : Fin cfg0.N) : Vec F S400x128 .f32 :=
  if h : 25 ≤ t.val then outBlk (grid0.coords t) ((cond2_iff t).mpr h) (iblk m c 0 t) (iblk m c 3 t) (Hfull m c) (Nfull m c)
  else payH m c t

/-- The invariant before point `k`: the two carried buffers at raw contents that read, on their first `400 · min k 25`
    rows, as the final ones; and the generator register. -/
def PhiS (c : Dev nD) (k : ℕ) : sProp 𝕄 :=
  iprop((∃ f7 f8, ⌜RowsDone m c k (scH.view.read (Elt F) f7) (scN.view.read (Elt F) f8)⌝
      ∗ (scH.view.loc (c : Thread nD τ) ↦[scH.view.set]{fullShare} f7) ∗ (scN.view.loc (c : Thread nD τ) ↦[scN.view.set]{fullShare} f8))
    ∗ (∃ r, prngReg c r))

/-- The proof data on core `c`: the arrays as the launch finds them; after the body each input's buffer at its
    block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The invariant at a point's start and at its end. -/
theorem Phi_castSucc (c : Dev nD) (t : Fin cfg0.N) : (dats m 0 c).Φ t.castSucc = PhiS m c t.val := by
  dsimp only [dats, Fin.coe_castSucc]
theorem Phi_succ (c : Dev nD) (t : Fin cfg0.N) : (dats m 0 c).Φ t.succ = PhiS m c (t.val + 1) := by
  dsimp only [dats, Fin.val_succ]

end Cert.Kernel.Body

end
-- ==== Proof.BodyObligBits.lean ====
/-
  The body obligation of the layer's launch at every grid point, the launch, and the frame.

  At a point of the first walk the invariant hands the body the two carried buffers with their first `400 t` rows
  final; the body stores block `t`'s rows on top, so the first `400 (t + 1)` rows are final afterwards; the output
  block goes back as it came. At a point of the second walk both buffers are complete, the body reads them and
  overwrites the output block with `outAt`. The launch then runs from the bare invariant (nothing claimed of the
  carried buffers) back to it, and the argument arrays are never written.
-/
import proofs.«159945_g69672959476101_cont_9to1_m_1023_4_alg».proof.Proof.Gen.Kernel.Frame
import proofs.«159945_g69672959476101_cont_9to1_m_1023_4_alg».proof.Proof.Gen.Kernel.Skeleton
import proofs.«159945_g69672959476101_cont_9to1_m_1023_4_alg».proof.Proof.BodyDataBits
import Idealize.ShloMosaic.Lib.WritesUnit
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and each window's current buffer at what
    it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point, by the walk the point belongs to. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Phi_castSucc, Phi_succ]
  have hN : t.val < 50 := lt_of_lt_of_eq t.isLt (show cfg0.N = 50 from N_0)
  by_cases h0 : t.val < 25
  · have hc0 : k0_cond1 (grid0.coords t) = 1#1 := (cond1_iff t).mpr h0
    have hc1 : ¬ k0_cond2 (grid0.coords t) = 1#1 := fun h => by have := (cond2_iff t).mp h; omega
    rw [show (dats m 0 c).leavesExact 0 t = owns (c : Thread nD τ) (ms0 t) fullShare ((dats m 0 c).after 0 t) from by
      unfold Dat.leavesExact; rw [live0 t], after_0]
    rw [show (dats m 0 c).leavesExact 1 t = owns (c : Thread nD τ) (ms1 t) fullShare ((dats m 0 c).after 1 t) from by
      unfold Dat.leavesExact; rw [live1 t], after_1]
    rw [show (dats m 0 c).leavesExact 2 t = owns (c : Thread nD τ) (ms2 t) fullShare ((dats m 0 c).after 2 t) from by
      unfold Dat.leavesExact; rw [live2 t], after_2]
    rw [show (dats m 0 c).leavesExact 3 t = owns (c : Thread nD τ) (ms3 t) fullShare ((dats m 0 c).after 3 t) from by
      unfold Dat.leavesExact; rw [live3 t], after_3]
    rw [(dats m 0 c).leavesExact_idle 4 t (idle4 t h0) (noflush4 t h0)]
    unfold PhiS
    iintro ⟨⟨⟨%f7, %f8, %hR, HS0, HS1⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ scH (Memref.isWhole_whole _) scN (Memref.isWhole_whole _) hc0 hc1
      (iblk m c 0 t) (iblk m c 1 t) (iblk m c 2 t) (iblk m c 3 t) ((dats m 0 c).before 4 t d4) f7 f8) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%P7, %hP7, HS0⟩, ⟨%P8, %hP8, HS1⟩⟩
    subst hP7; subst hP8
    isplitl [HS0 HS1 Hg]
    · isplitl [HS0 HS1]
      · iexists _, _
        isplitr
        · ipureintro; exact rowsDone_step m c t h0 hc0 f7 f8 hR
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists d4; iexact H4
  · have h1 : 25 ≤ t.val := by omega
    have hc0 : ¬ k0_cond1 (grid0.coords t) = 1#1 := fun h => h0 ((cond1_iff t).mp h)
    have hc1 : k0_cond2 (grid0.coords t) = 1#1 := (cond2_iff t).mpr h1
    rw [show (dats m 0 c).leavesExact 0 t = owns (c : Thread nD τ) (ms0 t) fullShare ((dats m 0 c).after 0 t) from by
      unfold Dat.leavesExact; rw [live0 t], after_0]
    rw [show (dats m 0 c).leavesExact 1 t = owns (c : Thread nD τ) (ms1 t) fullShare ((dats m 0 c).after 1 t) from by
      unfold Dat.leavesExact; rw [live1 t], after_1]
    rw [show (dats m 0 c).leavesExact 2 t = owns (c : Thread nD τ) (ms2 t) fullShare ((dats m 0 c).after 2 t) from by
      unfold Dat.leavesExact; rw [live2 t], after_2]
    rw [show (dats m 0 c).leavesExact 3 t = owns (c : Thread nD τ) (ms3 t) fullShare ((dats m 0 c).after 3 t) from by
      unfold Dat.leavesExact; rw [live3 t], after_3]
    rw [show (dats m 0 c).leavesExact 4 t = owns (c : Thread nD τ) (ms4 t) fullShare ((dats m 0 c).after 4 t) from by
      unfold Dat.leavesExact; rw [live4 t h1], after_4, outAt, dif_pos h1]
    unfold PhiS
    iintro ⟨⟨⟨%f7, %f8, %hR, HS0, HS1⟩, Hg⟩, Ho, ⟨%d0, H0⟩, ⟨%d1, H1⟩, ⟨%d2, H2⟩, ⟨%d3, H3⟩, ⟨%d4, H4⟩⟩
    obtain ⟨e7, e8⟩ := rowsDone_full m c t.val h1 _ _ hR
    rw [← e7, ← e8]
    iapply ((runB c (grid0.coords t) _ _ _ _ _ _ _ _ _ _ scH (Memref.isWhole_whole _) scN (Memref.isWhole_whole _) hc0 hc1
      (iblk m c 0 t) (iblk m c 1 t) (iblk m c 2 t) (iblk m c 3 t) f7 f8) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · iexists f7, f8
        isplitr
        · ipureintro; rw [e7, e8]; exact rowsDone_of_full m c _
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant claims nothing of the carried buffers: the launch's own invariant gives it, -/
theorem hin (c : Dev nD) : Pipeline.ΦA spec0 c ⊢ (dats m 0 c).Φ 0 := by
  rw [show (dats m 0 c).Φ 0 = PhiS m c 0 from by dsimp only [dats]; rfl, PhiA_eq]
  unfold PhiS owns
  iintro ⟨⟨⟨%d7, %f7, -, H7⟩, ⟨%d8, %f8, -, H8⟩⟩, Hg⟩
  isplitr [Hg]
  · iexists f7, f8
    isplitr
    · ipureintro; exact rowsDone_zero m c _ _
    isplitl [H7]; · iexact H7
    iexact H8
  iexact Hg

/-- and after the last point what is known of them is forgotten. -/
theorem hout (c : Dev nD) : (dats m 0 c).Φ (Fin.last cfg0.N) ⊢ Pipeline.ΦA spec0 c := by
  rw [show (dats m 0 c).Φ (Fin.last cfg0.N) = PhiS m c cfg0.N from by dsimp only [dats]; rfl, PhiA_eq]
  unfold PhiS owns
  iintro ⟨⟨%f7, %f8, -, H7, H8⟩, Hg⟩
  isplitr [Hg]
  · isplitl [H7]
    · iexists _, f7; isplitr; · ipureintro; rfl
      iexact H7
    iexists _, f8; isplitr; · ipureintro; rfl
    iexact H8
  iexact Hg

set_option backward.isDefEq.respectTransparency.types false in
/-- At the compiled mesh, for any values, from any memory with zero counters: every weakly fair execution of the
    program terminates, every array of the launch ends at what the proof data computes for it (an input at its
    entry contents, the output at its entry contents overwritten by the blocks written back), and every other
    unscoped buffer at its entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.SchedIdeal.lean ====
/-
  The grid of this layer's one launch has 50 points: 25 row blocks of 400 rows, walked twice. The first walk (points
  0–24) computes each block's degree factors and scaled projections; the second (points 25–49) multiplies the
  adjacency block into the projections. Here: which branch a point takes, which 400 rows of the two carried buffers it
  addresses, and at which points the output block is left alone or written back — each decided over the 50 points.
-/
import proofs.«159945_g69672959476101_cont_9to1_m_1023_4_alg».proof.Proof.Gen.KernelIdeal.Frame
import proofs.«159945_g69672959476101_cont_9to1_m_1023_4_alg».proof.Proof.Gen.KernelIdeal.Skeleton
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The first branch (degree factors and projections) is taken exactly at the first 25 points. -/
theorem cond1_iff : ∀ t : Fin cfg0.N, k0_cond1 (grid0.coords t) = 1#1 ↔ t.val < 25 :=
  (by decide +kernel : ∀ t : Fin grid0.N, k0_cond1 (grid0.coords t) = 1#1 ↔ t.val < 25)

/-- The second branch (the product with the adjacency block) is taken exactly at the last 25 points. -/
theorem cond2_iff : ∀ t : Fin cfg0.N, k0_cond2 (grid0.coords t) = 1#1 ↔ 25 ≤ t.val :=
  (by decide +kernel : ∀ t : Fin grid0.N, k0_cond2 (grid0.coords t) = 1#1 ↔ 25 ≤ t.val)

/-- Point `t` addresses rows `400 · (t mod 25)` onwards of the factor column, when it stores them … -/
theorem off1_eq : ∀ t : Fin cfg0.N, k0_off1 (grid0.coords t) = ![400 * (t.val % 25), 0] :=
  (by decide +kernel : ∀ t : Fin grid0.N, k0_off1 (grid0.coords t) = ![400 * (t.val % 25), 0])

/-- … of the projections, when it stores them … -/
theorem off2_eq : ∀ t : Fin cfg0.N, k0_off2 (grid0.coords t) = ![400 * (t.val % 25), 0] :=
  (by decide +kernel : ∀ t : Fin grid0.N, k0_off2 (grid0.coords t) = ![400 * (t.val % 25), 0])

/-- … and of the factor column again, when the second walk loads them back. -/
theorem off3_eq : ∀ t : Fin cfg0.N, k0_off3 (grid0.coords t) = ![400 * (t.val % 25), 0] :=
  (by decide +kernel : ∀ t : Fin grid0.N, k0_off3 (grid0.coords t) = ![400 * (t.val % 25), 0])

/-- The four inputs are live at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- During the first walk the output block is idle and is not written back. -/
theorem idle4 : ∀ t : Fin cfg0.N, t.val < 25 → cfg0.idle 4 (grid0.coords t) = true := by decide +kernel
theorem noflush4 : ∀ t : Fin cfg0.N, t.val < 25 → (cfg0.win 4).flush t = false :=
  (by decide +kernel : ∀ t : Fin grid0.N, t.val < 25 → win0_4.flush t = false)

/-- During the second walk it is live, and every point writes its block back. -/
theorem live4 : ∀ t : Fin cfg0.N, 25 ≤ t.val → cfg0.idle 4 (grid0.coords t) = false := by decide +kernel
theorem flush4 : ∀ t : Fin cfg0.N, 25 ≤ t.val → (cfg0.win 4).flush t = true :=
  (by decide +kernel : ∀ t : Fin grid0.N, 25 ≤ t.val → win0_4.flush t = true)

end Cert.KernelIdeal.Body

end
-- ==== Proof.BodyRunAIdeal.lean ====
/-
  The kernel body at a point of the FIRST walk (branch 1 taken, branch 2 not), on whole buffers at known contents.

  It reads the adjacency block, the feature block and the weights, and stores the block's 400 degree factors into
  rows `off1` onwards of the factor column and its 400 × 128 scaled projections into rows `off2` onwards of the
  projection buffer; every other row of the two carried buffers keeps what it held, and the output block is not
  touched. What is stored is named by the body's arithmetic as pure terms of what was loaded.
-/
import proofs.«159945_g69672959476101_cont_9to1_m_1023_4_alg».proof.Proof.Gen.KernelIdeal.Frame
import proofs.«159945_g69672959476101_cont_9to1_m_1023_4_alg».proof.Proof.Gen.KernelIdeal.Skeleton
import proofs.«159945_g69672959476101_cont_9to1_m_1023_4_alg».proof.Proof.SchedIdeal
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of a rank-2 buffer, as a function. -/
private theorem zero2 : (![0, 0] : Fin 2 → ℕ) = fun _ => 0 := by
  funext a; fin_cases a <;> rfl

set_option maxHeartbeats 1000000 in
/-- THE FIRST WALK's body. The two carried buffers come as raw contents `f7`, `f8` and go back with ONE store each on
    top: the projections `P7` through rows `off2`, the factors `P8` through rows `off1`; the output block `xi4` is
    handed back as found. -/
theorem runA (c : Dev nD) (i : grid0.Coords) (arg2 : Memref sig .tc .vmem S400x10000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x1 .f32) (harg8 : arg8.IsWhole)
    (hc0 : k0_cond1 i = 1#1) (hc1 : ¬ k0_cond2 i = 1#1)
    (x0 : Vec F S400x10000 .f32) (x1 : Vec F S400x128 .f32) (x2 : Vec F S128x128 .f32) (x3 : Vec F S1x128 .f32)
    (xi4 : Vec F S400x128 .f32) (f7 : arg7.view.ty.Contents (Elt F)) (f8 : arg8.view.ty.Contents (Elt F)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (arg7.view.loc (c : Thread nD τ) ↦[arg7.view.set]{fullShare} f7) ∗ (arg8.view.loc (c : Thread nD τ) ↦[arg8.view.set]{fullShare} f8)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ P7, ⌜P7 = k0_pay3 x0 x1 x2⌝ ∗ arg7.view.loc (c : Thread nD τ) ↦[arg7.view.set]{fullShare} arg7.view.writes (Elt F) f7 [⟨Rect.unit (s := S10000x128) (k0_off2 i) S400x128.size (k0_off2_inb i hc0), P7⟩])
                ∗ (∃ P8, ⌜P8 = k0_pay2 x0⌝ ∗ arg8.view.loc (c : Thread nD τ) ↦[arg8.view.set]{fullShare} arg8.view.writes (Elt F) f8 [⟨Rect.unit (s := S10000x1) (k0_off1 i) S400x1.size (k0_off1_inb i hc0), P8⟩])) -∗ K ⟨⟩))
          ⊢ wp frame (wpE (defs₀ (F := F)) Variants.none c none) E (cc0__gcn_kernel i arg2 harg2 arg3 harg3 arg4 harg4 arg5 harg5 arg6 harg6 arg7 harg7 arg8 harg8) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, HS0, HS1, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [HS0]
    · iexists _; isplitr; swap; · iexact HS0
      ipureintro
      simp only [View.readAt_eq_ld, harg2.read_unread, harg3.read_unread, harg4.read_unread, View.ld_unit_zero (S := S400x10000) zero2, View.ld_unit_zero (S := S400x128) zero2, View.ld_unit_zero (S := S128x128) zero2]
    iexists _; isplitr; swap; · iexact HS1
    ipureintro
    simp only [View.readAt_eq_ld, harg2.read_unread, View.ld_unit_zero (S := S400x10000) zero2]

end Cert.KernelIdeal.Body

end
-- ==== Proof.BodyRunBIdeal.lean ====
/-
  The kernel body at a point of the SECOND walk (branch 2 taken, branch 1 not), on whole buffers at known contents.

  It reads the adjacency block, the WHOLE projection buffer, the 400 rows of the factor column the point addresses
  and the bias, and overwrites the whole output block with the body's last term of them; the two carried buffers
  are only read.
-/
import proofs.«159945_g69672959476101_cont_9to1_m_1023_4_alg».proof.Proof.Gen.KernelIdeal.Frame
import proofs.«159945_g69672959476101_cont_9to1_m_1023_4_alg».proof.Proof.Gen.KernelIdeal.Skeleton
import proofs.«159945_g69672959476101_cont_9to1_m_1023_4_alg».proof.Proof.SchedIdeal
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets of a rank-2 buffer, as a function. -/
private theorem zero2 : (![0, 0] : Fin 2 → ℕ) = fun _ => 0 := by
  funext a; fin_cases a <;> rfl

/-- One store through the whole of a buffer, whatever it held, reads back as the stored value. -/
theorem read_store_whole {S : Shape} {e : EltTy} {κ : Kind} {sp : Space} (v : View sig κ sp S e) (f : v.ty.Contents (Elt F))
    {off : Fin S.rank → ℕ} (h : off = fun _ => 0) (inb : ∀ a, off a + S.size a ≤ S.size a)
    (w : (Rect.unit off S.size inb).shape.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-- What the second walk stores into the output block at grid coordinates `i`: the body's last term of the adjacency
    block `x0`, the whole projection buffer `d7`, the 400 rows of the factor column `d8` that the point addresses, and
    the bias `x3`. -/
def outBlk (i : grid0.Coords) (hc1 : k0_cond2 i = 1#1) (x0 : Vec F S400x10000 .f32) (x3 : Vec F S1x128 .f32)
    (d7 : Vec F S10000x128 .f32) (d8 : Vec F S10000x1 .f32) : Vec F S400x128 .f32 :=
  k0_pay4 x0 d7 (View.ld d8 (Rect.unit (s := S10000x1) (k0_off3 i) S400x1.size (k0_off3_inb i hc1))) x3

set_option maxHeartbeats 1000000 in
/-- THE SECOND WALK's body. The carried buffers are held at raw contents `f7`, `f8` and come back untouched; the output
    block, whatever it held, ends at `outBlk` of what the two buffers read. -/
theorem runB (c : Dev nD) (i : grid0.Coords) (arg2 : Memref sig .tc .vmem S400x10000 .f32) (harg2 : arg2.IsWhole) (arg3 : Memref sig .tc .vmem S400x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x1 .f32) (harg8 : arg8.IsWhole)
    (hc0 : ¬ k0_cond1 i = 1#1) (hc1 : k0_cond2 i = 1#1)
    (x0 : Vec F S400x10000 .f32) (x1 : Vec F S400x128 .f32) (x2 : Vec F S128x128 .f32) (x3 : Vec F S1x128 .f32)
    (f7 : arg7.view.ty.Contents (Elt F)) (f8 : arg8.view.ty.Contents (Elt F)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (arg7.view.loc (c : Thread nD τ) ↦[arg7.view.set]{fullShare} f7) ∗ (arg8.view.loc (c : Thread nD τ) ↦[arg8.view.set]{fullShare} f8)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (outBlk i hc1 x0 x3 (arg7.view.read (Elt F) f7) (arg8.view.read (Elt F) f8))
                ∗ (arg7.view.loc (c : Thread nD τ) ↦[arg7.view.set]{fullShare} f7) ∗ (arg8.view.loc (c : Thread nD τ) ↦[arg8.view.set]{fullShare} f8)) -∗ K ⟨⟩))
          ⊢ wp frame (wpE (defs₀ (F := F)) Variants.none c none) E (cc0__gcn_kernel i arg2 harg2 arg3 harg3 arg4 harg4 arg5 harg5 arg6 harg6 arg7 harg7 arg8 harg8) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, HS0, HS1, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_store_whole arg6.view f4 zero2 _ _).trans ?_
      unfold outBlk
      simp only [View.readAt_eq_ld, harg2.read_unread, harg5.read_unread, View.ld_unit_zero (S := S400x10000) zero2, View.ld_unit_zero (S := S10000x128) zero2, View.ld_unit_zero (S := S1x128) zero2]
    isplitl [HS0]
    · iexact HS0
    iexact HS1

end Cert.KernelIdeal.Body

end
-- ==== Proof.BodyDataIdeal.lean ====
/-
  The proof data of the layer's one launch, and the body obligation at every point.

  The two buffers the kernel carries between points are filled 400 rows at a time during the first walk: after `k`
  points (`k ≤ 25`) rows `0 … 400k − 1` of the projection buffer hold, row block by row block, the scaled projections
  computed from that block's slices of the arguments (`Hfull`), and the same rows of the factor column hold the
  blocks' degree factors (`Nfull`); the rows above hold whatever they held. From point 25 on both are complete and
  only read. The output block is left alone during the first walk (idle, not written back) and at point `t ≥ 25` is
  overwritten with the body's last term of the adjacency block, the complete `Hfull`, rows `400 (t − 25) …` of
  `Nfull`, and the bias (`outAt`).
-/
import proofs.«159945_g69672959476101_cont_9to1_m_1023_4_alg».proof.Proof.Gen.KernelIdeal.Frame
import proofs.«159945_g69672959476101_cont_9to1_m_1023_4_alg».proof.Proof.Gen.KernelIdeal.Skeleton
import proofs.«159945_g69672959476101_cont_9to1_m_1023_4_alg».proof.Proof.SchedIdeal
import proofs.«159945_g69672959476101_cont_9to1_m_1023_4_alg».proof.Proof.BodyRunAIdeal
import proofs.«159945_g69672959476101_cont_9to1_m_1023_4_alg».proof.Proof.BodyRunBIdeal
import Idealize.ShloMosaic.Lib.WritesUnit
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- Each window's current staging buffer at point `t`, and that it is a whole buffer. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The projection buffer and the factor column: whole buffers of the kernel's own. -/
abbrev scH : Memref sig .tc .vmem S10000x128 .f32 := Memref.whole cc0_scratch0
abbrev scN : Memref sig .tc .vmem S10000x1 .f32 := Memref.whole cc0_scratch1

/-- The launch's invariant as it stands — the two carried buffers at anything, and the generator register. -/
theorem PhiA_eq (c : Dev nD) :
    (Pipeline.ΦA spec0 c : sProp 𝕄)
      = iprop(iprop((∃ d, owns (c : Thread nD τ) scH fullShare d) ∗ (∃ d, owns (c : Thread nD τ) scN fullShare d)) ∗ (∃ r, prngReg c r)) := by
  unfold Pipeline.ΦA; rw [scopedRest0_eq]; simp only [scH, scN, owns_whole]; try rfl

/-! ## What the carried buffers end the first walk with -/

/-- The grid point of the first walk that fills the row block holding row `r`. -/
def blkPt (r : ℕ) (hr : r < 10000) : Fin cfg0.N := ⟨r / 400, by
  have hN : cfg0.N = 50 := N_0
  rw [hN]; omega⟩

theorem blkPt_val (r : ℕ) (hr : r < 10000) : (blkPt r hr).val = r / 400 := rfl

/-- Row `r`'s place inside its block of 400 rows, with a column. -/
def locIdx {n : ℕ} (r : ℕ) (q : Fin n) : (⟨2, ![400, n]⟩ : Shape).Idx :=
  ValueIdx.ix2 (⟨r % 400, Nat.mod_lt _ (by decide)⟩ : Fin 400) q

/-- The scaled projections of the row block that point `j` of the first walk handles: the body's second store, of the
    point's adjacency, feature and weight blocks. -/
def payH (c : Dev nD) (j : Fin cfg0.N) : Vec F S400x128 .f32 := k0_pay3 (iblk m c 0 j) (iblk m c 1 j) (iblk m c 2 j)

/-- The degree factors of that row block: the body's first store, of the point's adjacency block. -/
def payN (c : Dev nD) (j : Fin cfg0.N) : Vec F S400x1 .f32 := k0_pay2 (iblk m c 0 j)

/-- The complete projection buffer: row `r` holds row `r mod 400` of the scaled projections of block `r / 400`. -/
def Hfull (c : Dev nD) : Vec F S10000x128 .f32 := fun y =>
  payH m c (blkPt (y 0).val (ValueIdx.idx2_lt0 y)) (locIdx (y 0).val (⟨(y 1).val, ValueIdx.idx2_lt1 y⟩ : Fin 128))

/-- The complete factor column, likewise. -/
def Nfull (c : Dev nD) : Vec F S10000x1 .f32 := fun y =>
  payN m c (blkPt (y 0).val (ValueIdx.idx2_lt0 y)) (locIdx (y 0).val (⟨(y 1).val, ValueIdx.idx2_lt1 y⟩ : Fin 1))

/-- After `k` points the rows below `400 · min k 25` of the two carried buffers are final. -/
def RowsDone (c : Dev nD) (k : ℕ) (d7 : Vec F S10000x128 .f32) (d8 : Vec F S10000x1 .f32) : Prop :=
  (∀ y : S10000x128.Idx, (y 0).val < 400 * min k 25 → d7 y = Hfull m c y)
    ∧ ∀ y : S10000x1.Idx, (y 0).val < 400 * min k 25 → d8 y = Nfull m c y

/-- Before any point nothing is claimed. -/
theorem rowsDone_zero (c : Dev nD) (d7 : Vec F S10000x128 .f32) (d8 : Vec F S10000x1 .f32) : RowsDone m c 0 d7 d8 :=
  ⟨fun y h => absurd h (by simp), fun y h => absurd h (by simp)⟩

/-- From point 25 on the buffers ARE the complete ones. -/
theorem rowsDone_full (c : Dev nD) (k : ℕ) (hk : 25 ≤ k) (d7 : Vec F S10000x128 .f32) (d8 : Vec F S10000x1 .f32)
    (h : RowsDone m c k d7 d8) : d7 = Hfull m c ∧ d8 = Nfull m c := by
  have e : 400 * min k 25 = 10000 := by rw [Nat.min_eq_right hk]
  exact ⟨funext fun y => h.1 y (by rw [e]; exact ValueIdx.idx2_lt0 y), funext fun y => h.2 y (by rw [e]; exact ValueIdx.idx2_lt0 y)⟩

/-- and stay so. -/
theorem rowsDone_of_full (c : Dev nD) (k : ℕ) : RowsDone m c k (Hfull m c) (Nfull m c) :=
  ⟨fun _ _ => rfl, fun _ _ => rfl⟩

/-- THE STEP of the first walk. Point `t < 25` stores its block's projections through rows `400 t …` of the projection
    buffer and its factors through the same rows of the factor column: a row of that block now reads the stored value
    at its place in the block, which is what `Hfull` / `Nfull` say of it (its block is `t`); a row below reads what it
    read before, final already. -/
theorem rowsDone_step (c : Dev nD) (t : Fin cfg0.N) (ht : t.val < 25) (hc0 : k0_cond1 (grid0.coords t) = 1#1)
    (f7 : scH.view.ty.Contents (Elt F)) (f8 : scN.view.ty.Contents (Elt F))
    (h : RowsDone m c t.val (scH.view.read (Elt F) f7) (scN.view.read (Elt F) f8)) :
    RowsDone m c (t.val + 1)
      (scH.view.read (Elt F) (scH.view.writes (Elt F) f7 [⟨Rect.unit (s := S10000x128) (k0_off2 (grid0.coords t)) S400x128.size (k0_off2_inb (grid0.coords t) hc0), payH m c t⟩]))
      (scN.view.read (Elt F) (scN.view.writes (Elt F) f8 [⟨Rect.unit (s := S10000x1) (k0_off1 (grid0.coords t)) S400x1.size (k0_off1_inb (grid0.coords t) hc0), payN m c t⟩])) := by
  have hmod : t.val % 25 = t.val := Nat.mod_eq_of_lt ht
  have hmin : min (t.val + 1) 25 = t.val + 1 := Nat.min_eq_left (by omega)
  have hmin' : min t.val 25 = t.val := Nat.min_eq_left (by omega)
  have ho2 : k0_off2 (grid0.coords t) = ![400 * t.val, 0] := by rw [off2_eq t, hmod]
  have ho1 : k0_off1 (grid0.coords t) = ![400 * t.val, 0] := by rw [off1_eq t, hmod]
  refine ⟨fun y hy => ?_, fun y hy => ?_⟩
  · rw [hmin] at hy
    by_cases hlo : 400 * t.val ≤ (y 0).val
    · have e : blkPt (y 0).val (ValueIdx.idx2_lt0 y) = t := Fin.ext (by rw [blkPt_val]; omega)
      rw [View.read_writes_cons_rows_of_mem scH.view f7 (k0_off2_inb (grid0.coords t) hc0) (payH m c t) [] y
        (locIdx (y 0).val (⟨(y 1).val, ValueIdx.idx2_lt1 y⟩ : Fin 128)) ho2
        (by show (y 0).val = 400 * t.val + (y 0).val % 400; omega) rfl]
      unfold Hfull
      exact congrArg (fun j => payH m c j (locIdx (y 0).val (⟨(y 1).val, ValueIdx.idx2_lt1 y⟩ : Fin 128))) e.symm
    · rw [View.read_writes_cons_rows_of_not_mem scH.view f7 (k0_off2_inb (grid0.coords t) hc0) (payH m c t) [] y ho2
        (show S400x128.size (0 : Fin 2) = 400 from rfl) (Or.inl (by omega)), View.writes_nil]
      exact h.1 y (by rw [hmin']; omega)
  · rw [hmin] at hy
    by_cases hlo : 400 * t.val ≤ (y 0).val
    · have e : blkPt (y 0).val (ValueIdx.idx2_lt0 y) = t := Fin.ext (by rw [blkPt_val]; omega)
      rw [View.read_writes_cons_rows_of_mem scN.view f8 (k0_off1_inb (grid0.coords t) hc0) (payN m c t) [] y
        (locIdx (y 0).val (⟨(y 1).val, ValueIdx.idx2_lt1 y⟩ : Fin 1)) ho1
        (by show (y 0).val = 400 * t.val + (y 0).val % 400; omega) rfl]
      unfold Nfull
      exact congrArg (fun j => payN m c j (locIdx (y 0).val (⟨(y 1).val, ValueIdx.idx2_lt1 y⟩ : Fin 1))) e.symm
    · rw [View.read_writes_cons_rows_of_not_mem scN.view f8 (k0_off1_inb (grid0.coords t) hc0) (payN m c t) [] y ho1
        (show S400x1.size (0 : Fin 2) = 400 from rfl) (Or.inl (by omega)), View.writes_nil]
      exact h.2 y (by rw [hmin']; omega)

/-! ## The proof data -/

/-- What the second walk leaves in the output block at point `t` (at a point of the first walk nothing reads this
    value: the block is idle there and is not written back). -/
def outAt (c : Dev nD) (t : Fin cfg0.N) : Vec F S400x128 .f32 :=
  if h : 25 ≤ t.val then outBlk (grid0.coords t) ((cond2_iff t).mpr h) (iblk m c 0 t) (iblk m c 3 t) (Hfull m c) (Nfull m c)
  else payH m c t

/-- The invariant before point `k`: the two carried buffers at raw contents that read, on their first `400 · min k 25`
    rows, as the final ones; and the generator register. -/
def PhiS (c : Dev nD) (k : ℕ) : sProp 𝕄 :=
  iprop((∃ f7 f8, ⌜RowsDone m c k (scH.view.read (Elt F) f7) (scN.view.read (Elt F) f8)⌝
      ∗ (scH.view.loc (c : Thread nD τ) ↦[scH.view.set]{fullShare} f7) ∗ (scN.view.loc (c : Thread nD τ) ↦[scN.view.set]{fullShare} f8))
    ∗ (∃ r, prngReg c r))

/-- The proof data on core `c`: the arrays as the launch finds them; after the body each input's buffer at its
    block and the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- Each input's current buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The invariant at a point's start and at its end. -/
theorem Phi_castSucc (c : Dev nD) (t : Fin cfg0.N) : (dats m 0 c).Φ t.castSucc = PhiS m c t.val := by
  dsimp only [dats, Fin.coe_castSucc]
theorem Phi_succ (c : Dev nD) (t : Fin cfg0.N) : (dats m 0 c).Φ t.succ = PhiS m c (t.val + 1) := by
  dsimp only [dats, Fin.val_succ]

end Cert.KernelIdeal.Body

end
-- ==== Proof.BodyObligIdeal.lean ====
/-
  The body obligation of the layer's launch at every grid point, the launch, and the frame.

  At a point of the first walk the invariant hands the body the two carried buffers with their first `400 t` rows
  final; the body stores block `t`'s rows on top, so the first `400 (t + 1)` rows are final afterwards; the output
  block goes back as it came. At a point of the second walk both buffers are complete, the body reads them and
  overwrites the output block with `outAt`. The launch then runs from the bare invariant (nothing claimed of the
  carried buffers) back to it, and the argument arrays are never written.
-/
import proofs.«159945_g69672959476101_cont_9to1_m_1023_4_alg».proof.Proof.Gen.KernelIdeal.Frame
import proofs.«159945_g69672959476101_cont_9to1_m_1023_4_alg».proof.Proof.Gen.KernelIdeal.Skeleton
import proofs.«159945_g69672959476101_cont_9to1_m_1023_4_alg».proof.Proof.BodyDataIdeal
import Idealize.ShloMosaic.Lib.WritesUnit
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, nothing owed, and each window's current buffer at what
    it then holds, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point, by the walk the point belongs to. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Phi_castSucc, Phi_succ]
  have hN : t.val < 50 := lt_of_lt_of_eq t.isLt (show cfg0.N = 50 from N_0)
  by_cases h0 : t.val < 25
  · have hc0 : k0_cond1 (grid0.coords t) = 1#1 := (cond1_iff t).mpr h0
    have hc1 : ¬ k0_cond2 (grid0.coords t) = 1#1 := fun h => by have := (cond2_iff t).mp h; omega
    rw [show (dats m 0 c).leavesExact 0 t = owns (c : Thread nD τ) (ms0 t) fullShare ((dats m 0 c).after 0 t) from by
      unfold Dat.leavesExact; rw [live0 t], after_0]
    rw [show (dats m 0 c).leavesExact 1 t = owns (c : Thread nD τ) (ms1 t) fullShare ((dats m 0 c).after 1 t) from by
      unfold Dat.leavesExact; rw [live1 t], after_1]
    rw [show (dats m 0 c).leavesExact 2 t = owns (c : Thread nD τ) (ms2 t) fullShare ((dats m 0 c).after 2 t) from by
      unfold Dat.leavesExact; rw [live2 t], after_2]
    rw [show (dats m 0 c).leavesExact 3 t = owns (c : Thread nD τ) (ms3 t) fullShare ((dats m 0 c).after 3 t) from by
      unfold Dat.leavesExact; rw [live3 t], after_3]
    rw [(dats m 0 c).leavesExact_idle 4 t (idle4 t h0) (noflush4 t h0)]
    unfold PhiS
    iintro ⟨⟨⟨%f7, %f8, %hR, HS0, HS1⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ scH (Memref.isWhole_whole _) scN (Memref.isWhole_whole _) hc0 hc1
      (iblk m c 0 t) (iblk m c 1 t) (iblk m c 2 t) (iblk m c 3 t) ((dats m 0 c).before 4 t d4) f7 f8) Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%P7, %hP7, HS0⟩, ⟨%P8, %hP8, HS1⟩⟩
    subst hP7; subst hP8
    isplitl [HS0 HS1 Hg]
    · isplitl [HS0 HS1]
      · iexists _, _
        isplitr
        · ipureintro; exact rowsDone_step m c t h0 hc0 f7 f8 hR
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists d4; iexact H4
  · have h1 : 25 ≤ t.val := by omega
    have hc0 : ¬ k0_cond1 (grid0.coords t) = 1#1 := fun h => h0 ((cond1_iff t).mp h)
    have hc1 : k0_cond2 (grid0.coords t) = 1#1 := (cond2_iff t).mpr h1
    rw [show (dats m 0 c).leavesExact 0 t = owns (c : Thread nD τ) (ms0 t) fullShare ((dats m 0 c).after 0 t) from by
      unfold Dat.leavesExact; rw [live0 t], after_0]
    rw [show (dats m 0 c).leavesExact 1 t = owns (c : Thread nD τ) (ms1 t) fullShare ((dats m 0 c).after 1 t) from by
      unfold Dat.leavesExact; rw [live1 t], after_1]
    rw [show (dats m 0 c).leavesExact 2 t = owns (c : Thread nD τ) (ms2 t) fullShare ((dats m 0 c).after 2 t) from by
      unfold Dat.leavesExact; rw [live2 t], after_2]
    rw [show (dats m 0 c).leavesExact 3 t = owns (c : Thread nD τ) (ms3 t) fullShare ((dats m 0 c).after 3 t) from by
      unfold Dat.leavesExact; rw [live3 t], after_3]
    rw [show (dats m 0 c).leavesExact 4 t = owns (c : Thread nD τ) (ms4 t) fullShare ((dats m 0 c).after 4 t) from by
      unfold Dat.leavesExact; rw [live4 t h1], after_4, outAt, dif_pos h1]
    unfold PhiS
    iintro ⟨⟨⟨%f7, %f8, %hR, HS0, HS1⟩, Hg⟩, Ho, ⟨%d0, H0⟩, ⟨%d1, H1⟩, ⟨%d2, H2⟩, ⟨%d3, H3⟩, ⟨%d4, H4⟩⟩
    obtain ⟨e7, e8⟩ := rowsDone_full m c t.val h1 _ _ hR
    rw [← e7, ← e8]
    iapply ((runB c (grid0.coords t) _ _ _ _ _ _ _ _ _ _ scH (Memref.isWhole_whole _) scN (Memref.isWhole_whole _) hc0 hc1
      (iblk m c 0 t) (iblk m c 1 t) (iblk m c 2 t) (iblk m c 3 t) f7 f8) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · iexists f7, f8
        isplitr
        · ipureintro; rw [e7, e8]; exact rowsDone_of_full m c _
        isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant claims nothing of the carried buffers: the launch's own invariant gives it, -/
theorem hin (c : Dev nD) : Pipeline.ΦA spec0 c ⊢ (dats m 0 c).Φ 0 := by
  rw [show (dats m 0 c).Φ 0 = PhiS m c 0 from by dsimp only [dats]; rfl, PhiA_eq]
  unfold PhiS owns
  iintro ⟨⟨⟨%d7, %f7, -, H7⟩, ⟨%d8, %f8, -, H8⟩⟩, Hg⟩
  isplitr [Hg]
  · iexists f7, f8
    isplitr
    · ipureintro; exact rowsDone_zero m c _ _
    isplitl [H7]; · iexact H7
    iexact H8
  iexact Hg

/-- and after the last point what is known of them is forgotten. -/
theorem hout (c : Dev nD) : (dats m 0 c).Φ (Fin.last cfg0.N) ⊢ Pipeline.ΦA spec0 c := by
  rw [show (dats m 0 c).Φ (Fin.last cfg0.N) = PhiS m c cfg0.N from by dsimp only [dats]; rfl, PhiA_eq]
  unfold PhiS owns
  iintro ⟨⟨%f7, %f8, -, H7, H8⟩, Hg⟩
  isplitr [Hg]
  · isplitl [H7]
    · iexists _, f7; isplitr; · ipureintro; rfl
      iexact H7
    iexists _, f8; isplitr; · ipureintro; rfl
    iexact H8
  iexact Hg

set_option backward.isDefEq.respectTransparency.types false in
/-- At the compiled mesh, for any values, from any memory with zero counters: every weakly fair execution of the
    program terminates, every array of the launch ends at what the proof data computes for it (an input at its
    entry contents, the output at its entry contents overwritten by the blocks written back), and every other
    unscoped buffer at its entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.GcnSpec.lean ====
/-
  The layer as one function of its four argument arrays, on the extended reals.

  For an adjacency `A` (10000 × 10000), features `X` (10000 × 128), weights `W` (128 × 128, stored output-major) and a
  bias `b` (128):

    deg r      = Σ_k A[r, k]                                   the row sum
    nrm r      = 1 / √(deg r)  where deg r > 0,  0 elsewhere   the symmetric normalisation's factor
    hid r d    = (Σ_j X[r, j] · W[d, j]) · nrm r               the projected features, scaled by their own row's factor
    out r d    = (Σ_k A[r, k] · hid k d) · nrm r + b[d]

  This is  D^(-1/2) A D^(-1/2) X Wᵀ + b  with the two diagonal factors moved next to the matrices they scale: the right
  factor into `hid`, the left one outside the sum over `k`. Every index is built from coordinates of the literal
  extents, so both programs' index functions meet these by `rfl`-level equations.
-/
import Idealize.ShloMosaic.PureOps.Ideal
import Idealize.ShloMosaic.Lib.ValueIdx

noncomputable section

namespace Cert.GcnSpec

open Idealize.ShloMosaic Idealize.ShloMosaic.ValueIdx

/-- Every entry of an array of extended reals is a real number. -/
def IsReal {s : Shape} (X : s.Idx → EReal) : Prop := ∀ i, ∃ x : ℝ, X i = (x : EReal)

/-- The normalisation factor of a row from its sum: the reciprocal square root where the sum is positive, zero
    elsewhere (a row that sums to zero or below contributes nothing). -/
def nrmOf (s : EReal) : EReal := if 0 < s then Ideal.rsqrt s else 0

/-- The sum of row `r` of the adjacency. -/
def deg (A : (⟨2, ![10000, 10000]⟩ : Shape).Idx → EReal) (r : Fin 10000) : EReal :=
  ∑ k : Fin 10000, A (ix2 r k)

/-- Row `r`'s normalisation factor. -/
def nrm (A : (⟨2, ![10000, 10000]⟩ : Shape).Idx → EReal) (r : Fin 10000) : EReal := nrmOf (deg A r)

/-- The projected features of row `r`, output channel `d`, scaled by the row's factor. -/
def hid (A : (⟨2, ![10000, 10000]⟩ : Shape).Idx → EReal) (X : (⟨2, ![10000, 128]⟩ : Shape).Idx → EReal)
    (W : (⟨2, ![128, 128]⟩ : Shape).Idx → EReal) (r : Fin 10000) (d : Fin 128) : EReal :=
  (∑ j : Fin 128, X (ix2 r j) * W (ix2 d j)) * nrm A r

/-- The layer's output at row `r`, channel `d`. -/
def out (A : (⟨2, ![10000, 10000]⟩ : Shape).Idx → EReal) (X : (⟨2, ![10000, 128]⟩ : Shape).Idx → EReal)
    (W : (⟨2, ![128, 128]⟩ : Shape).Idx → EReal) (b : (⟨1, ![128]⟩ : Shape).Idx → EReal) (r : Fin 10000) (d : Fin 128) : EReal :=
  (∑ k : Fin 10000, A (ix2 r k) * hid A X W k d) * nrm A r + b (ix1 d)

/-- The whole output array. -/
def G (A : (⟨2, ![10000, 10000]⟩ : Shape).Idx → EReal) (X : (⟨2, ![10000, 128]⟩ : Shape).Idx → EReal)
    (W : (⟨2, ![128, 128]⟩ : Shape).Idx → EReal) (b : (⟨1, ![128]⟩ : Shape).Idx → EReal) :
    (⟨2, ![10000, 128]⟩ : Shape).Idx → EReal :=
  fun i => out A X W b (i 0) (i 1)

theorem G_apply (A : (⟨2, ![10000, 10000]⟩ : Shape).Idx → EReal) (X : (⟨2, ![10000, 128]⟩ : Shape).Idx → EReal)
    (W : (⟨2, ![128, 128]⟩ : Shape).Idx → EReal) (b : (⟨1, ![128]⟩ : Shape).Idx → EReal) (r : Fin 10000) (d : Fin 128) :
    G A X W b (ix2 r d) = out A X W b r d := rfl

end Cert.GcnSpec

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.PayloadsIdeal.lean ====
/-
  The four values the layer's kernel stores, each read at one pair of coordinates.

  The kernel works on a block of 400 rows. In its first phase it sums each row of the adjacency block, turns the sum
  `s` into the factor `1/√s` where `s > 0` and `0` elsewhere, keeps that column, and scales the projected features
  `X Wᵀ` of the block's rows by it. In its second phase it multiplies the adjacency block by the whole array of
  scaled features, scales row `p` by the kept factor of row `p`, and adds the bias.

  Every operation but four is pointwise, so it reads through at an index. The four that are not: the sum over the
  second axis (at row `p` the sum over `k` of the entries `(p, k)`), the two layouts that keep the reduced axis as
  a unit axis (a column read at `(p, 0)`, a row read at `(0, d)`), and the two contractions (at `(p, d)` the sum over
  the one contracted coordinate of the products of the operands' entries).
-/
import proofs.«159945_g69672959476101_cont_9to1_m_1023_4_alg».proof.Proof.Gen.KernelIdeal.Skeleton
import proofs.«159945_g69672959476101_cont_9to1_m_1023_4_alg».proof.Proof.GcnSpec
import proofs.«159945_g69672959476101_cont_9to1_m_1023_4_alg».proof.Proof.LibRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-! ## The factor: compare with zero, then select -/

/-- On the extended reals, "select `1/√s` where `s > 0`, else `0`" is the normalisation factor of the sum `s`. -/
theorem select_rsqrt (s : EReal) :
    Scalar.select (FloatOps.cmpf (F := Ideal) (φ := .f32) .ogt s (Scalar.ofBits .f32 0x00000000#32))
        (FloatOps.rsqrt (F := Ideal) (φ := .f32) s) (Scalar.ofBits .f32 0x00000000#32)
      = Cert.GcnSpec.nrmOf s := by
  show Scalar.select (Ideal.cmp .ogt s (Ideal.ofBits .f32 0x00000000#32)) (Ideal.rsqrt s) (Ideal.ofBits .f32 0x00000000#32) = _
  rw [Ideal.ofBits_zero_f32]
  unfold Cert.GcnSpec.nrmOf Ideal.cmp
  by_cases h : (0 : EReal) < s
  · rw [if_pos h]
    show Scalar.select (BitVec.ofBool (decide (0 < s))) _ _ = _
    rw [decide_eq_true h]
    exact select_one _ _
  · rw [if_neg h]
    show Scalar.select (BitVec.ofBool (decide (0 < s))) _ _ = _
    rw [decide_eq_false h]
    exact select_zero _ _

/-! ## The row sum -/

/-- The sum over the second axis of a `400 × 10000` block, recast as a column: at `(p, 0)` it is the sum of row `p`. -/
theorem rowsum_apply (x0 : Vec Ideal S400x10000 .f32) (p : Fin 400) :
    shapeCast S400x1 (multiReduction (F := Ideal) .add [1] S400 x0 0x00000000#32 reduces_S400x10000_S400 (.inl rfl) rfl)
        shapeCasts_S400_S400x1 (ix2 p 0)
      = ∑ k : Fin 10000, x0 (ix2 p k) := by
  refine (Cert.Rows.cast_col _ shapeCasts_S400_S400x1 p).trans ?_
  refine (Ideal.multiReduction_add_single x0 0x00000000#32 reduces_S400x10000_S400 (.inl rfl) rfl (ix1 p)).trans ?_
  exact Finset.sum_congr rfl fun k _ => congrArg x0 (Cert.Rows.lift_row reduces_S400x10000_S400 p k)

/-! ## The two contractions

For each contraction, first where its two operands are read: a kept axis takes the output's coordinate, the contracted
axis takes the contraction's one coordinate. -/

theorem proj_lhs_0 (i : S400x128.Idx) (q : dot_S400x128_S128x128_S400x128_1_1_0_0_n_n.contr.Idx) :
    (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide),
    dif_pos (show (0 : Fin S400x128.rank) ∈ dot_S400x128_S128x128_S400x128_1_1_0_0_n_n.lhsNonContracting by decide)]
  rfl
theorem proj_lhs_1 (i : S400x128.Idx) (q : dot_S400x128_S128x128_S400x128_1_1_0_0_n_n.contr.Idx) :
    (dot_S400x128_S128x128_S400x128_1_1_0_0_n_n.lhsIdx i q 1).val = (q ⟨0, by decide⟩).val :=
  dot_S400x128_S128x128_S400x128_1_1_0_0_n_n.lhsIdx_val_of_single rfl i q
theorem proj_rhs_0 (i : S400x128.Idx) (q : dot_S400x128_S128x128_S400x128_1_1_0_0_n_n.contr.Idx) :
    (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide),
    dif_pos (show (0 : Fin S128x128.rank) ∈ dot_S400x128_S128x128_S400x128_1_1_0_0_n_n.rhsNonContracting by decide)]
  rfl
theorem proj_rhs_1 (i : S400x128.Idx) (q : dot_S400x128_S128x128_S400x128_1_1_0_0_n_n.contr.Idx) :
    (dot_S400x128_S128x128_S400x128_1_1_0_0_n_n.rhsIdx i q 1).val = (q ⟨0, by decide⟩).val :=
  dot_S400x128_S128x128_S400x128_1_1_0_0_n_n.rhsIdx_val_of_single rfl i q

/-- The projection `X Wᵀ` of a block of rows: both operands are contracted along their second axis. -/
theorem proj_apply (x1 : Vec Ideal S400x128 .f32) (x2 : Vec Ideal S128x128 .f32) (p : Fin 400) (d : Fin 128) :
    matmul (F := Ideal) (φ₁ := .f32) (φ₂ := .f32) dot_S400x128_S128x128_S400x128_1_1_0_0_n_n none x1 x2 (constant (F := Ideal) S400x128 .f32 0x00000000#32) (ix2 p d)
      = ∑ j : Fin 128, x1 (ix2 p j) * x2 (ix2 d j) := by
  simp only [matmul]
  rw [Ideal.matmul_constant_zero_apply, ← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx (ix2 p d) ((contrEquiv1 dot_S400x128_S128x128_S400x128_1_1_0_0_n_n 128 rfl rfl).symm k) = ix2 p k :=
    funext fun a => Fin.ext (by
      match a with
      | ⟨0, _⟩ => exact proj_lhs_0 _ _
      | ⟨1, _⟩ => exact (proj_lhs_1 _ _).trans hk)
  have er : dot_S400x128_S128x128_S400x128_1_1_0_0_n_n.rhsIdx (ix2 p d) ((contrEquiv1 dot_S400x128_S128x128_S400x128_1_1_0_0_n_n 128 rfl rfl).symm k) = ix2 d k :=
    funext fun a => Fin.ext (by
      match a with
      | ⟨0, _⟩ => exact proj_rhs_0 _ _
      | ⟨1, _⟩ => exact (proj_rhs_1 _ _).trans hk)
  rw [el, er]

theorem aggr_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem aggr_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem aggr_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem aggr_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The aggregation `A · H` of a block of adjacency rows with the whole array of scaled features: the block's second
    axis against the array's first. -/
theorem aggr_apply (x0 : Vec Ideal S400x10000 .f32) (h : Vec Ideal S10000x128 .f32) (p : Fin 400) (d : Fin 128) :
    matmul (F := Ideal) (φ₁ := .f32) (φ₂ := .f32) dot_S400x10000_S10000x128_S400x128_1_0_0_1_n_n none x0 h (constant (F := Ideal) S400x128 .f32 0x00000000#32) (ix2 p d)
      = ∑ k : Fin 10000, x0 (ix2 p k) * h (ix2 k d) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p d) ((contrEquiv1 dot_S400x10000_S10000x128_S400x128_1_0_0_1_n_n 10000 rfl rfl).symm k) = ix2 p k :=
    funext fun a => Fin.ext (by
      match a with
      | ⟨0, _⟩ => exact aggr_lhs_0 _ _
      | ⟨1, _⟩ => exact (aggr_lhs_1 _ _).trans hk)
  have er : dot_S400x10000_S10000x128_S400x128_1_0_0_1_n_n.rhsIdx (ix2 p d) ((contrEquiv1 dot_S400x10000_S10000x128_S400x128_1_0_0_1_n_n 10000 rfl rfl).symm k) = ix2 k d :=
    funext fun a => Fin.ext (by
      match a with
      | ⟨0, _⟩ => exact (aggr_rhs_0 _ _).trans hk
      | ⟨1, _⟩ => exact aggr_rhs_1 _ _)
  rw [el, er]

/-! ## The four stored values -/

/-- The kept column of factors: at `(p, 0)` the factor of row `p`'s sum. -/
theorem pay1_apply (x0 : Vec Ideal S400x10000 .f32) (p : Fin 400) :
    k0_pay1 (F := Ideal) x0 (ix2 p 0) = Cert.GcnSpec.nrmOf (∑ k : Fin 10000, x0 (ix2 p k)) := by
  unfold k0_pay1
  exact (select_rsqrt _).trans (congrArg Cert.GcnSpec.nrmOf (rowsum_apply x0 p))

/-- The same column as it is stored (a cast to its own shape changes nothing). -/
theorem pay2_apply (x0 : Vec Ideal S400x10000 .f32) (p : Fin 400) :
    k0_pay2 (F := Ideal) x0 (ix2 p 0) = Cert.GcnSpec.nrmOf (∑ k : Fin 10000, x0 (ix2 p k)) := by
  unfold k0_pay2
  exact (congrFun (shapeCast_self (k0_pay1 (F := Ideal) x0) shapeCasts_S400x1_S400x1) (ix2 p 0)).trans (pay1_apply x0 p)

/-- The scaled projected features: at `(p, d)` the projection of row `p` on channel `d` times row `p`'s factor. -/
theorem pay3_apply (x0 : Vec Ideal S400x10000 .f32) (x1 : Vec Ideal S400x128 .f32) (x2 : Vec Ideal S128x128 .f32)
    (p : Fin 400) (d : Fin 128) :
    k0_pay3 (F := Ideal) x0 x1 x2 (ix2 p d)
      = (∑ j : Fin 128, x1 (ix2 p j) * x2 (ix2 d j)) * Cert.GcnSpec.nrmOf (∑ k : Fin 10000, x0 (ix2 p k)) := by
  unfold k0_pay3
  refine (congrFun (shapeCast_self _ shapeCasts_S400x128_S400x128) (ix2 p d)).trans ?_
  refine (mulf_apply _ _ (ix2 p d)).trans ?_
  rw [proj_apply x1 x2 p d,
    Cert.Rows.bcast_col (by decide) (k0_pay1 (F := Ideal) x0) broadcasts_S400x1_S400x128 p d, pay1_apply x0 p]

/-- The output block: at `(p, d)` the aggregation of row `p` on channel `d`, times the kept factor of row `p`, plus
    the bias of channel `d`. -/
theorem pay4_apply (x0 : Vec Ideal S400x10000 .f32) (h : Vec Ideal S10000x128 .f32) (n : Vec Ideal S400x1 .f32)
    (bb : Vec Ideal S1x128 .f32) (p : Fin 400) (d : Fin 128) :
    k0_pay4 (F := Ideal) x0 h n bb (ix2 p d)
      = (∑ k : Fin 10000, x0 (ix2 p k) * h (ix2 k d)) * n (ix2 p 0) + bb (ix2 0 d) := by
  unfold k0_pay4
  refine (addf_apply _ _ (ix2 p d)).trans ?_
  rw [Cert.Rows.bcast_row (by decide) _ broadcasts_S1x128_S400x128 p d, shapeCast_self bb shapeCasts_S1x128_S1x128]
  refine congrArg (· + bb (ix2 0 d)) ?_
  refine (mulf_apply _ _ (ix2 p d)).trans ?_
  rw [aggr_apply x0 h p d, Cert.Rows.bcast_col (by decide) n broadcasts_S400x1_S400x128 p d]

end Cert.KernelIdeal.PayValue

end
-- ==== Proof.KernelValueIdeal.lean ====
/-
  The values the layer's kernel leaves, at the exact instance, read at one pair of coordinates.

  The launch walks the 25 row blocks of 400 rows twice. At point `t` the adjacency block is rows `400 (t mod 25) …`
  of the adjacency, all columns; the feature block is the same rows of the features; the weights and the bias (recast
  from `[128]` to `[1, 128]` before the launch) are whole. Hence, row by row of the full arrays:

    the factor column at `(r, 0)`     is the normalisation factor of row `r` of the adjacency;
    the projection buffer at `(r, d)` is the projection of row `r` of the features on channel `d` times that factor;
    the output block of point `t ≥ 25` at `(p, d)` is the layer's output at row `400 (t − 25) + p`, channel `d`.

  Row `r` lies in block `r / 400` at place `r mod 400`, and `400 (r / 400) + r mod 400 = r`.
-/
import proofs.«159945_g69672959476101_cont_9to1_m_1023_4_alg».proof.Proof.BodyDataIdeal
import proofs.«159945_g69672959476101_cont_9to1_m_1023_4_alg».proof.Proof.PayloadsIdeal
import proofs.«159945_g69672959476101_cont_9to1_m_1023_4_alg».proof.Proof.GcnSpec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Body Cert.KernelIdeal.PayValue
open Idealize.ShloMosaic Idealize.ShloMosaic.TcCoe Idealize.ShloMosaic.ValueIdx Idealize.ShloMosaic.StableHlo
open Idealize.SL.Sem

variable (m : (ℓ : Loc nD τ sig) → Buf (Elt Ideal) ℓ) (c : Dev nD)

/-! ## The four arguments as arrays of extended reals -/

/-- The adjacency, the features and the weights as the launch finds them, and the bias as launched. -/
abbrev adj : S10000x10000.Idx → EReal := V m c main_arg0
abbrev feat : S10000x128.Idx → EReal := V m c main_arg1
abbrev wts : S128x128.Idx → EReal := V m c main_arg2
abbrev bias : S128.Idx → EReal := m ((c : Thread nD τ).loc main_arg3)

/-! ## Which block a point reads -/

/-- The adjacency's and the features' block index at point `t` is `t mod 25` along the rows and `0` along the columns;
    the weights' and the bias's is `0` on both axes. Decided over the 50 points. -/
theorem idx0 : ∀ t : Fin cfg0.N, win0_0.index t (0 : Fin 2) = t.val % 25 ∧ win0_0.index t (1 : Fin 2) = 0 :=
  (by decide +kernel : ∀ t : Fin grid0.N, win0_0.index t (0 : Fin 2) = t.val % 25 ∧ win0_0.index t (1 : Fin 2) = 0)
theorem idx1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Place `p` of block `t mod 25` is a row of the full arrays. -/
theorem row_lt (t : Fin cfg0.N) (p : Fin 400) : 400 * (t.val % 25) + p.val < 10000 := by
  have := p.isLt; omega

/-- The row of the full arrays that place `p` of point `t`'s block is. -/
abbrev rowAt (t : Fin cfg0.N) (p : Fin 400) : Fin 10000 := ⟨400 * (t.val % 25) + p.val, row_lt t p⟩

/-! ## The blocks read at an index

An element of a block sits in the array, on each axis, at the block index times the block's size plus its own
coordinate. -/

/-- The adjacency block of point `t` at `(p, k)` is the adjacency at `(400 (t mod 25) + p, k)`. -/
theorem blk0_apply (t : Fin cfg0.N) (p : Fin 400) (k : Fin 10000) :
    iblk m c 0 t (ix2 p k) = adj m c (ix2 (rowAt t p) k) := by
  obtain ⟨h0, h1⟩ := idx0 t
  show V m c main_arg0 (((cfg0.win 0).blk t).view.emb (ix2 p k)) = V m c main_arg0 (ix2 (rowAt t p) k)
  refine congrArg (V m c main_arg0) (funext fun a => Fin.ext ?_)
  match a with
  | ⟨0, _⟩ => show win0_0.index t (0 : Fin 2) * 400 + 1 * p.val = 400 * (t.val % 25) + p.val; rw [h0]; omega
  | ⟨1, _⟩ => show win0_0.index t (1 : Fin 2) * 10000 + 1 * k.val = k.val; rw [h1]; omega

/-- The feature block of point `t` at `(p, j)` is the features at `(400 (t mod 25) + p, j)`. -/
theorem blk1_apply (t : Fin cfg0.N) (p : Fin 400) (j : Fin 128) :
    iblk m c 1 t (ix2 p j) = feat m c (ix2 (rowAt t p) j) := by
  obtain ⟨h0, h1⟩ := idx1 t
  show V m c main_arg1 (((cfg0.win 1).blk t).view.emb (ix2 p j)) = V m c main_arg1 (ix2 (rowAt t p) j)
  refine congrArg (V m c main_arg1) (funext fun a => Fin.ext ?_)
  match a with
  | ⟨0, _⟩ => show win0_1.index t (0 : Fin 2) * 400 + 1 * p.val = 400 * (t.val % 25) + p.val; rw [h0]; omega
  | ⟨1, _⟩ => show win0_1.index t (1 : Fin 2) * 128 + 1 * j.val = j.val; rw [h1]; omega

/-- The weights' block is the weights, at every point. -/
theorem blk2_apply (t : Fin cfg0.N) (d j : Fin 128) :
    iblk m c 2 t (ix2 d j) = wts m c (ix2 d j) := by
  obtain ⟨h0, h1⟩ := idx2 t
  show V m c main_arg2 (((cfg0.win 2).blk t).view.emb (ix2 d j)) = V m c main_arg2 (ix2 d j)
  refine congrArg (V m c main_arg2) (funext fun a => Fin.ext ?_)
  match a with
  | ⟨0, _⟩ => show win0_2.index t (0 : Fin 2) * 128 + 1 * d.val = d.val; rw [h0]; omega
  | ⟨1, _⟩ => show win0_2.index t (1 : Fin 2) * 128 + 1 * j.val = j.val; rw [h1]; omega

/-- Before the launch the bias is recast from `[128]` to `[1, 128]`; nothing else happens on the host. -/
theorem bias_row : (V m c main_v0 : S1x128.Idx → EReal) = shapeCast S1x128 (bias m c) shapeCasts_S128_S1x128 := by
  dsimp only [Gen.V, Gen.hostOps0]
  after_results
  rfl

/-- The bias's block at `(0, d)` is the bias at `d`, at every point. -/
theorem blk3_apply (t : Fin cfg0.N) (d : Fin 128) :
    iblk m c 3 t (ix2 0 d) = bias m c (ix1 d) := by
  obtain ⟨h0, h1⟩ := idx3 t
  have e : iblk m c 3 t (ix2 0 d) = (V m c main_v0 : S1x128.Idx → EReal) (ix2 0 d) := by
    show V m c main_v0 (((cfg0.win 3).blk t).view.emb (ix2 0 d)) = V m c main_v0 (ix2 0 d)
    refine congrArg (V m c main_v0) (funext fun a => Fin.ext ?_)
    match a with
    | ⟨0, _⟩ => show win0_3.index t (0 : Fin 2) * 1 + 1 * 0 = 0; rw [h0]
    | ⟨1, _⟩ => show win0_3.index t (1 : Fin 2) * 128 + 1 * d.val = d.val; rw [h1]; omega
  refine e.trans ?_
  rw [bias_row]
  exact shapeCast_apply (bias m c) shapeCasts_S128_S1x128 (ix2 0 d) (ix1 d) (by
    rw [Shape.rowMajor_val_one, Shape.rowMajor_val_two]; show d.val = 0 * 128 + d.val; omega)

/-! ## Row `r` in its block -/

/-- Row `r` is place `r mod 400` of the block that point `r / 400` of the first walk handles. -/
theorem rowAt_blkPt (r : Fin 10000) :
    rowAt (blkPt r.val r.isLt) (⟨r.val % 400, Nat.mod_lt _ (by decide)⟩ : Fin 400) = r := by
  apply Fin.ext
  show 400 * ((blkPt r.val r.isLt).val % 25) + r.val % 400 = r.val
  rw [blkPt_val]; have := r.isLt; omega

/-! ## The two carried buffers, complete -/

/-- The factor column at `(r, 0)` is the normalisation factor of row `r` of the adjacency. -/
theorem Nfull_apply (r : Fin 10000) : Nfull (F := Ideal) m c (ix2 r 0) = Cert.GcnSpec.nrm (adj m c) r := by
  show k0_pay2 (F := Ideal) (iblk m c 0 (blkPt r.val r.isLt)) (ix2 (⟨r.val % 400, Nat.mod_lt _ (by decide)⟩ : Fin 400) 0) = _
  refine (pay2_apply (iblk m c 0 (blkPt r.val r.isLt)) _).trans ?_
  unfold Cert.GcnSpec.nrm Cert.GcnSpec.deg
  refine congrArg Cert.GcnSpec.nrmOf (Finset.sum_congr rfl fun k _ => ?_)
  refine (blk0_apply m c _ _ k).trans ?_
  rw [rowAt_blkPt]

/-- The projection buffer at `(r, d)` is the scaled projection of row `r` on channel `d`. -/
theorem Hfull_apply (r : Fin 10000) (d : Fin 128) :
    Hfull (F := Ideal) m c (ix2 r d) = Cert.GcnSpec.hid (adj m c) (feat m c) (wts m c) r d := by
  show k0_pay3 (F := Ideal) (iblk m c 0 (blkPt r.val r.isLt)) (iblk m c 1 (blkPt r.val r.isLt)) (iblk m c 2 (blkPt r.val r.isLt))
      (ix2 (⟨r.val % 400, Nat.mod_lt _ (by decide)⟩ : Fin 400) d) = _
  refine (pay3_apply (iblk m c 0 (blkPt r.val r.isLt)) (iblk m c 1 (blkPt r.val r.isLt)) (iblk m c 2 (blkPt r.val r.isLt)) _ d).trans ?_
  unfold Cert.GcnSpec.hid Cert.GcnSpec.nrm Cert.GcnSpec.deg
  refine congrArg₂ (fun s f : EReal => s * f) (Finset.sum_congr rfl fun j _ => ?_)
    (congrArg Cert.GcnSpec.nrmOf (Finset.sum_congr rfl fun k _ => ?_))
  · refine congrArg₂ (fun a b : EReal => a * b) ?_ (blk2_apply m c _ d j)
    refine (blk1_apply m c _ _ j).trans ?_
    rw [rowAt_blkPt]
  · refine (blk0_apply m c _ _ k).trans ?_
    rw [rowAt_blkPt]

/-! ## The output block of a point of the second walk -/

/-- For `25 ≤ t < 50`, `t mod 25 = t − 25`. -/
theorem row_second (t : Fin cfg0.N) (ht : 25 ≤ t.val) (p : Fin 400) : 400 * (t.val - 25) + p.val < 10000 := by
  have hN : cfg0.N = 50 := N_0
  have := t.isLt; have := p.isLt; omega

/-- The 400 rows of the factor column a point loads back, at `(p, 0)`: the column at row `400 (t mod 25) + p`. -/
theorem ldN_apply (t : Fin cfg0.N) (hc : k0_cond2 (grid0.coords t) = 1#1) (X : Vec Ideal S10000x1 .f32) (p : Fin 400) :
    View.ld X (Rect.unit (s := S10000x1) (k0_off3 (grid0.coords t)) S400x1.size (k0_off3_inb (grid0.coords t) hc)) (ix2 p 0)
      = X (ix2 (rowAt t p) 0) := by
  have ho := off3_eq t
  show X _ = X _
  refine congrArg X (funext fun a => Fin.ext ?_)
  match a with
  | ⟨0, _⟩ => show k0_off3 (grid0.coords t) (0 : Fin 2) + 1 * p.val = 400 * (t.val % 25) + p.val; rw [ho]; show 400 * (t.val % 25) + 1 * p.val = _; omega
  | ⟨1, _⟩ => show k0_off3 (grid0.coords t) (1 : Fin 2) + 1 * 0 = 0; rw [ho]; rfl

/-- The output block of point `t ≥ 25` at `(p, d)` is the layer's output at row `400 (t − 25) + p`, channel `d`. -/
theorem outAt_apply (t : Fin cfg0.N) (ht : 25 ≤ t.val) (p : Fin 400) (d : Fin 128) :
    outAt (F := Ideal) m c t (ix2 p d)
      = Cert.GcnSpec.out (adj m c) (feat m c) (wts m c) (bias m c) ⟨400 * (t.val - 25) + p.val, row_second t ht p⟩ d := by
  have hN : cfg0.N = 50 := N_0
  have hrow : rowAt t p = (⟨400 * (t.val - 25) + p.val, row_second t ht p⟩ : Fin 10000) :=
    Fin.ext (by show 400 * (t.val % 25) + p.val = 400 * (t.val - 25) + p.val; have := t.isLt; omega)
  unfold outAt
  rw [dif_pos ht]
  unfold outBlk
  refine (pay4_apply (iblk m c 0 t) (Hfull (F := Ideal) m c) _ (iblk m c 3 t) p d).trans ?_
  rw [ldN_apply t ((cond2_iff t).mpr ht) (Nfull (F := Ideal) m c) p, Nfull_apply m c, blk3_apply m c t d, hrow]
  unfold Cert.GcnSpec.out
  refine congrArg (fun s => s * Cert.GcnSpec.nrm (adj m c) _ + bias m c (ix1 d)) ?_
  refine Finset.sum_congr rfl fun k _ => ?_
  rw [Hfull_apply m c k d, blk0_apply m c t p k, hrow]

end Cert.KernelIdeal.KValue

end
-- ==== Proof.KernelFinalIdeal.lean ====
/-
  From the blocks the second walk writes back to the whole output array, on the extended reals.

  The output array has 10000 rows and 128 columns and is written 400 rows at a time. A point t of the first walk
  (t < 25) writes nothing back. A point t of the second walk (25 ≤ t < 50) writes back the block whose index is
  (t − 25, 0): rows 400 (t − 25) … 400 (t − 25) + 399, all 128 columns. So an element at place (p, d) of that block
  sits at row 400 (t − 25) + p, column d of the array; and row r of the array lies in the block of point
  25 + r / 400, because 400 (r / 400) ≤ r < 400 (r / 400) + 400. Hence, if what every such point leaves in its block is
  that block of one function `G` of the whole array's indices, the array ends equal to `G`: each index is covered, and
  every point that covers it writes `G`'s value there.
-/
import proofs.«159945_g69672959476101_cont_9to1_m_1023_4_alg».proof.Proof.BodyDataIdeal
import proofs.«159945_g69672959476101_cont_9to1_m_1023_4_alg».proof.Proof.GcnSpec
import Idealize.ShloMosaic.Lib.ValueIdx
import Idealize.ShloMosaic.Lib.Pipeline.Value

set_option maxRecDepth 16384

noncomputable section

namespace Cert.KernelIdeal.KFinal

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- During the second walk the output's block index at point `t` is (t − 25, 0): decided over the 50 points. -/
theorem out_index : ∀ t : Fin cfg0.N, 25 ≤ t.val →
    win0_4.index t (0 : Fin 2) = t.val - 25 ∧ win0_4.index t (1 : Fin 2) = 0 :=
  (by decide +kernel : ∀ t : Fin grid0.N, 25 ≤ t.val →
    win0_4.index t (0 : Fin 2) = t.val - 25 ∧ win0_4.index t (1 : Fin 2) = 0)

/-- A point that writes the output block back belongs to the second walk. -/
theorem ge_of_flush (t : Fin cfg0.N) (hf : (cfg0.win 4).flush t = true) : 25 ≤ t.val := by
  by_contra h
  rw [noflush4 t (by omega)] at hf
  exact Bool.false_ne_true hf

/-- An index of the output array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]
  exact Iff.rfl

/-- Every index of the output array is in the block of a point that writes back: row r is covered by point 25 + r / 400. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 50 := N_0
  obtain ⟨t, htv⟩ : ∃ t : Fin cfg0.N, t.val = 25 + (i 0).val / 400 := ⟨⟨25 + (i 0).val / 400, by rw [hN]; omega⟩, rfl⟩
  have ht : 25 ≤ t.val := by omega
  obtain ⟨e0, e1⟩ := out_index t ht
  refine ⟨t, flush4 t ht, ?_⟩
  rw [mem_blk]
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 128 ≤ (i 1).val ∧ (i 1).val < win0_4.index t (1 : Fin 2) * 128 + 128
    omega

section Final

variable (G : S10000x128.Idx → EReal)
  (hO : ∀ (t : Fin cfg0.N) (ht : 25 ≤ t.val) (p : Fin 400) (d : Fin 128),
    outAt (F := Ideal) m c t (ix2 p d)
      = G (ix2 ⟨400 * (t.val - 25) + p.val, by have := t.isLt; have hN : cfg0.N = 50 := N_0; omega⟩ d))
include hO

/-- What a point of the second walk writes back is its block of `G`: rows 400 (t − 25) … of all 128 columns. -/
theorem flushed_eq (t : Fin cfg0.N) (hf : (cfg0.win 4).flush t = true) :
    (dats (F := Ideal) m 0 c).flushed 4 t = ((cfg0.win 4).blk t).view.read (Elt Ideal) G := by
  have ht : 25 ≤ t.val := ge_of_flush t hf
  obtain ⟨e0, e1⟩ := out_index t ht
  show (cfg0.win 4).cut (grid0.coords t) ((dats (F := Ideal) m 0 c).after 4 t) = _
  rw [after_4]
  funext y
  have hy0 : (y 0).val < 400 := (y 0).isLt
  have hy1 : (y 1).val < 128 := (y 1).isLt
  have hL : (cfg0.win 4).cut (grid0.coords t) (outAt (F := Ideal) m c t) y
      = outAt (F := Ideal) m c t (ix2 (⟨(y 0).val, hy0⟩ : Fin 400) (⟨(y 1).val, hy1⟩ : Fin 128)) :=
    congrArg (outAt (F := Ideal) m c t) (funext fun a => Fin.ext (by match a with | ⟨0, _⟩ => rfl | ⟨1, _⟩ => rfl))
  rw [hL, hO t ht]
  show G _ = G (((cfg0.win 4).blk t).view.emb y)
  refine congrArg G (funext fun a => Fin.ext ?_)
  match a with
  | ⟨0, _⟩ =>
    show 400 * (t.val - 25) + (y 0).val = win0_4.index t (0 : Fin 2) * 400 + 1 * (y 0).val
    omega
  | ⟨1, _⟩ =>
    show (y 1).val = win0_4.index t (1 : Fin 2) * 128 + 1 * (y 1).val
    omega

/-- The output array after the launch is `G`. -/
theorem final_of_blocks : (dats (F := Ideal) m 0 c).arrAt 4 cfg0.N = G :=
  (dats (F := Ideal) m 0 c).arrAt_eq_of_cover 4 G (fun t hf => flushed_eq m c G hO t hf) (fun i => covered i)

end Final

end Cert.KernelIdeal.KFinal

end
-- ==== Proof.KernelRunIdeal.lean ====
/-
  The idealized kernel's run with its result NAMED: every weakly fair execution terminates with the output array at
  the layer's specification of the four argument arrays, and the arguments unchanged.

  The frame run leaves the output array at its entry contents overwritten by the 25 blocks the second walk writes
  back; each such block is the specification's block (the carried buffers are complete by then, and the body's last
  term of them is `out`), and the 25 blocks tile the array.
-/
import proofs.«159945_g69672959476101_cont_9to1_m_1023_4_alg».proof.Proof.BodyObligIdeal
import proofs.«159945_g69672959476101_cont_9to1_m_1023_4_alg».proof.Proof.KernelValueIdeal
import proofs.«159945_g69672959476101_cont_9to1_m_1023_4_alg».proof.Proof.KernelFinalIdeal
import proofs.«159945_g69672959476101_cont_9to1_m_1023_4_alg».proof.Proof.GcnSpec

set_option maxRecDepth 16384

noncomputable section

namespace Cert.KernelIdeal.KRun

open Cert.KernelIdeal Cert.KernelIdeal.Gen Cert.KernelIdeal.Body
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The specification of the argument arrays as the launch finds them on core `c`. -/
def spec (c : Dev nD) : S10000x128.Idx → EReal :=
  Cert.GcnSpec.G (Cert.KernelIdeal.KValue.adj m c) (Cert.KernelIdeal.KValue.feat m c) (Cert.KernelIdeal.KValue.wts m c)
    (Cert.KernelIdeal.KValue.bias m c)

/-- After the launch the output array holds the specification. -/
theorem final (c : Dev nD) : (dats (F := Ideal) m 0 c).arrAt 4 cfg0.N = spec m c :=
  Cert.KernelIdeal.KFinal.final_of_blocks m c (spec m c) (fun t ht p d => by
    rw [Cert.KernelIdeal.KValue.outAt_apply m c t ht p d]; rfl)

/-- The run. -/
theorem run : θ_run defs (onTc (τ := τ) (main (F := Ideal))) ⟨m, fun _ => 0, ρ⟩ (fun r => ∀ c : Dev nD,
      r.2.mem ((c.tc : Thread nD τ).loc main_v1)
        = Cert.GcnSpec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).1 4).trans (final m c)).trans (by unfold spec Cert.KernelIdeal.KValue.adj Cert.KernelIdeal.KValue.feat Cert.KernelIdeal.KValue.wts Cert.KernelIdeal.KValue.bias; rw [V_main_arg0, V_main_arg1, V_main_arg2]),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.KRun

end
-- ==== Proof.RefIsSpec.lean ====
/-
  The reference's result is the layer's specification, on the extended reals, for real inputs.

  The reference forms the row sums deg r = Σ_k A[r, k], raises them to the power -1/2, replaces an infinite power by
  zero, scales the adjacency by that factor on both sides, and multiplies through: ((A · n[:, None]) · n[None, :]) X Wᵀ + b.

  Three facts carry the proof.
  * For a real row sum s the power s^(-1/2) is a real number, so the replacement of infinities never fires; and that real
    number is 1/√s for s > 0 and 0 for s ≤ 0 (at 0 by the convention 0^y = 0 for y ≠ 0; below 0 because the convention
    x^y = exp(y log x) cos(πy) has the factor cos(-π/2) = 0). That is the specification's factor.
  * Each stage of the reference read at an index is a product or a finite sum of real numbers, hence a real number; the
    coercion of the reals into the extended reals commutes with products and finite sums.
  * Over the reals,  Σ_j (Σ_k a_k m n_k x_kj) w_j = (Σ_k a_k ((Σ_j x_kj w_j) n_k)) m  by distributivity and the exchange
    of the two finite sums.
-/
import proofs.«159945_g69672959476101_cont_9to1_m_1023_4_alg».proof.Proof.Gen.ReferenceIdeal.Read
import proofs.«159945_g69672959476101_cont_9to1_m_1023_4_alg».proof.Proof.GcnSpec
import Idealize.ShloMosaic.Lib.ValueIdx
import Idealize.ShloMosaic.PureOps.Ideal.Laws

noncomputable section

namespace Cert.ReferenceIdeal.RefValue

open Cert.ReferenceIdeal Cert.ReferenceIdeal.Read Cert.GcnSpec Idealize.ShloMosaic Idealize.ShloMosaic.ValueIdx
open scoped BigOperators

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word 0xBF000000 is the real number -1/2. -/
theorem lit_neg_half : Ideal.ofBits .f32 0xBF000000#32 = (((-1 / 2 : ℝ)) : EReal) := by
  simp [Ideal.ofBits, Ideal.ieee, -EReal.coe_mul]; norm_num

/-- The word 0x7F800000 is +∞. -/
theorem lit_top : Ideal.ofBits .f32 0x7F800000#32 = ⊤ := by
  simp [Ideal.ofBits, Ideal.ieee]

/-- The normalisation factor as a function of a real row sum: the reciprocal square root of a positive sum, zero of any other. -/
def nr (s : ℝ) : ℝ := if 0 < s then (Real.sqrt s)⁻¹ else 0

/-- The power x ↦ x^(-1/2) on the reals is the reciprocal square root on the positive reals and vanishes elsewhere:
    at zero by the convention 0^y = 0 for y ≠ 0, and below zero because the convention's factor cos(-π/2) is zero. -/
theorem rpow_neg_half (s : ℝ) : Real.rpow s (-1 / 2) = nr s := by
  unfold nr
  rw [Real.rpow_eq_pow]
  rcases lt_trichotomy s 0 with h | h | h
  · rw [if_neg (not_lt.mpr h.le), Real.rpow_def_of_neg h]
    have : (-1 / 2 : ℝ) * Real.pi = -(Real.pi / 2) := by ring
    rw [this, Real.cos_neg, Real.cos_pi_div_two, mul_zero]
  · subst h
    rw [if_neg (lt_irrefl _), Real.zero_rpow (by norm_num)]
  · rw [if_pos h, show (-1 / 2 : ℝ) = -(1 / 2) by ring, Real.rpow_neg h.le, Real.sqrt_eq_rpow]

/-- The specification's factor of a real row sum is that real function. -/
theorem nrmOf_coe (s : ℝ) : nrmOf (s : EReal) = ((nr s : ℝ) : EReal) := by
  unfold nrmOf nr
  by_cases h : 0 < s
  · rw [if_pos (EReal.coe_pos.mpr h), if_pos h, Ideal.rsqrt_coe, if_neg (not_lt.mpr h.le), if_neg h.ne']
  · rw [if_neg (fun h' => h (EReal.coe_pos.mp h')), if_neg h, EReal.coe_zero]

/-- The reference's factor of a real row sum: the power is a real number, so its magnitude is not +∞, the
    selection keeps the power, and the power is the same real function. -/
theorem ref_norm_coe (s : ℝ) (z : EReal) :
    Scalar.select (Ideal.cmp .oeq (max (Ideal.pow (s : EReal) (Ideal.ofBits .f32 0xBF000000#32))
        (-(Ideal.pow (s : EReal) (Ideal.ofBits .f32 0xBF000000#32)))) (Ideal.ofBits .f32 0x7F800000#32))
      z (Ideal.pow (s : EReal) (Ideal.ofBits .f32 0xBF000000#32))
      = ((nr s : ℝ) : EReal) := by
  rw [lit_neg_half, lit_top, Ideal.pow_coe_coe, rpow_neg_half]
  have hne : ¬ (max ((nr s : ℝ) : EReal) (-((nr s : ℝ) : EReal)) = ⊤) := by
    rcases max_choice ((nr s : ℝ) : EReal) (-((nr s : ℝ) : EReal)) with h | h <;> rw [h]
    · exact EReal.coe_ne_top _
    · rw [← EReal.coe_neg]; exact EReal.coe_ne_top _
  show Scalar.select (BitVec.ofBool (decide (_ = ⊤))) _ _ = _
  rw [decide_eq_false hne]
  exact select_zero _ _

/-! ## The reference's stages at an index, over real entries -/

section Stages

variable (A : (⟨S10000x10000, .f32⟩ : BufTy).Contents (Elt Ideal)) (a : S10000x10000.Idx → ℝ)
  (ha : ∀ i, A i = ((a i : ℝ) : EReal))
include ha

/-- The specification's factor of row `r` is the real function of the row's real sum. -/
theorem nrm_coe (r : Fin 10000) : nrm A r = ((nr (∑ k : Fin 10000, a (ix2 r k)) : ℝ) : EReal) := by
  unfold nrm deg
  simp only [ha]
  rw [← coe_sum]
  exact nrmOf_coe _

/-- The reference's factor of row `r`: the power of the row sum with infinities replaced, which for a real row sum
    is the same real function. -/
theorem norm_stage (r : Fin 10000) :
    val_main_v4 (F := Ideal) A (ix1 r) = ((nr (∑ k : Fin 10000, a (ix2 r k)) : ℝ) : EReal) := by
  have hidx : ∀ k : Fin 10000, idx_main_v0 (ix1 r) k = ix2 r k := fun k =>
    funext fun c => Fin.ext (by match c with | ⟨0, _⟩ => rfl | ⟨1, _⟩ => rfl)
  rw [val_main_v4_apply, val_main_v3_apply, val_main_call0_v0_apply, val_main_call0_v1_apply, val_main_call0_cst_apply,
    val_main_v2_apply, val_main_v1_apply, val_main_cst_0_apply, val_main_v0_apply, val_main_cst_apply]
  simp only [hidx, ha, Ideal.ofBits_def, Ideal.hostPowf_def, Ideal.hostAbsf_def, Ideal.absf_def, Ideal.cmpf_def]
  rw [Ideal.ofBits_zero_f32, zero_add, ← coe_sum]
  exact ref_norm_coe _ _

/-- The doubly scaled adjacency at (r, k): the entry times row r's factor times row k's factor. -/
theorem scaled_stage (r k : Fin 10000) :
    val_main_v10 (F := Ideal) A (ix2 r k)
      = ((a (ix2 r k) * nr (∑ k' : Fin 10000, a (ix2 r k')) * nr (∑ k' : Fin 10000, a (ix2 k k')) : ℝ) : EReal) := by
  have h5 : idx_main_v5 (idx_main_v6 (ix2 r k)) = ix1 r :=
    funext fun c => Fin.ext (by match c with | ⟨0, _⟩ => rfl)
  have h8 : idx_main_v8 (idx_main_v9 (ix2 r k)) = ix1 k :=
    funext fun c => Fin.ext (by match c with | ⟨0, _⟩ => rfl)
  rw [val_main_v10_apply, val_main_v7_apply, val_main_v6_apply, val_main_v5_apply, val_main_v9_apply, val_main_v8_apply,
    h5, h8, norm_stage A a ha, norm_stage A a ha, ha, Ideal.mulf_def, Ideal.mulf_def, EReal.coe_mul, EReal.coe_mul]

end Stages

/-! ## The rearrangement, over the reals -/

/-- Moving the two diagonal factors: the right one into the inner product with the weights, the left one outside the
    sum over the neighbours. -/
theorem rearrange_real {K J : Type*} [Fintype K] [Fintype J] (a n : K → ℝ) (m : ℝ) (x : K → J → ℝ) (w : J → ℝ) :
    ∑ j, (∑ k, a k * m * n k * x k j) * w j = (∑ k, a k * ((∑ j, x k j * w j) * n k)) * m := by
  simp only [Finset.sum_mul, Finset.mul_sum]
  rw [Finset.sum_comm]
  refine Finset.sum_congr rfl fun k _ => Finset.sum_congr rfl fun j _ => ?_
  ring

/-! ## The reference's result is the specification -/

theorem ref_is_spec (A : (⟨Cert.ReferenceIdeal.S10000x10000, .f32⟩ : BufTy).Contents (Elt Ideal))
    (X : (⟨Cert.ReferenceIdeal.S10000x128, .f32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal))
    (hA : Cert.GcnSpec.IsReal A) (hX : Cert.GcnSpec.IsReal X) (hW : Cert.GcnSpec.IsReal W) (hb : Cert.GcnSpec.IsReal b) :
    Cert.ReferenceIdeal.Read.val_main_v16 (F := Ideal) A X W b = Cert.GcnSpec.G A X W b := by
  choose a ha using hA
  choose x hx using hX
  choose w hw using hW
  choose c hc using hb
  funext i
  obtain ⟨r, d, rfl⟩ : ∃ (r : Fin 10000) (d : Fin 128), i = ix2 r d := ⟨i 0, i 1, eq_ix2 i⟩
  have hl13 : ∀ j : Fin 128, lidx_main_v13 (ix2 r d) j = ix2 r j := fun j =>
    funext fun e => Fin.ext (by match e with | ⟨0, _⟩ => rfl | ⟨1, _⟩ => rfl)
  have hr13 : ∀ j : Fin 128, idx_main_v12 (ridx_main_v13 (ix2 r d) j) = ix2 d j := fun j =>
    funext fun e => Fin.ext (by match e with | ⟨0, _⟩ => rfl | ⟨1, _⟩ => rfl)
  have hl11 : ∀ (j : Fin 128) (k : Fin 10000), lidx_main_v11 (ix2 r j) k = ix2 r k := fun j k =>
    funext fun e => Fin.ext (by match e with | ⟨0, _⟩ => rfl | ⟨1, _⟩ => rfl)
  have hr11 : ∀ (j : Fin 128) (k : Fin 10000), ridx_main_v11 (ix2 r j) k = ix2 k j := fun j k =>
    funext fun e => Fin.ext (by match e with | ⟨0, _⟩ => rfl | ⟨1, _⟩ => rfl)
  have hb15 : idx_main_v14 (idx_main_v15 (ix2 r d)) = ix1 d :=
    funext fun e => Fin.ext (by match e with | ⟨0, _⟩ => rfl)
  rw [val_main_v16_apply, val_main_v13_apply, val_main_v15_apply, val_main_v14_apply, hb15, G_apply]
  simp only [hl13, val_main_v12_apply, hr13, val_main_v11_apply, hl11, hr11, scaled_stage A a ha, hx, hw, hc]
  unfold out hid
  simp only [nrm_coe A a ha, ha, hx, hw, hc, Ideal.addf_def]
  simp only [← EReal.coe_mul, ← coe_sum, ← EReal.coe_add]
  rw [EReal.coe_eq_coe_iff]
  exact congrArg (· + c (ix1 d)) (rearrange_real (fun k => a (ix2 r k)) (fun k => nr (∑ k' : Fin 10000, a (ix2 k k')))
    (nr (∑ k' : Fin 10000, a (ix2 r k'))) (fun k j => x (ix2 k j)) (fun j => w (ix2 d j)))

end Cert.ReferenceIdeal.RefValue

end
-- ==== Proof.FiniteInputs.lean ====
/-
  From the finiteness precondition to "every entry of every argument is a real number".

  The precondition compares, entry by entry, the absolute value of each argument array with plus infinity, takes the
  conjunction over all entries of each array, and the conjunction of the four results. On the extended reals the
  absolute value `max x (-x)` is below plus infinity exactly when `x` is neither infinity, that is, when `x` is a
  real number.
-/
import proofs.«159945_g69672959476101_cont_9to1_m_1023_4_alg».proof.Pre_finite_inputs
import proofs.«159945_g69672959476101_cont_9to1_m_1023_4_alg».proof.Proof.GcnSpec
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx

/-- The scalar shape has one index. -/
instance scalarIdx_subsingleton : Subsingleton S_.Idx := ⟨fun a b => funext fun d => d.elim0⟩

/-- The word `0x7F800000` is plus infinity. -/
theorem ofBits_inf_f32 : Ideal.ofBits .f32 0x7F800000#32 = ⊤ := by simp [Ideal.ofBits, Ideal.ieee]

/-- An extended real whose absolute value compares below plus infinity is a real number: minus and plus infinity
    both have absolute value plus infinity. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf_f32] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x using EReal.rec with
  | bot => exact absurd hlt (by simp)
  | top => exact absurd hlt (by simp)
  | coe r => exact ⟨r, rfl⟩

/-- One argument array: if "every entry's absolute value is below plus infinity" came out true, every entry is a real
    number. -/
theorem isReal_of_all {s : Shape} {axes : List (Fin s.rank)} (X : FVec Ideal s .f32)
    (hb : S_.BroadcastsInDim s (![] : Fin 0 → Fin s.rank)) (hr : s.ReducesTo axes S_) (hu : 0 < S_.numel)
    (e : Host.reduce IntOp.andi
        (cmpf .olt (Host.absf X) (broadcastInDim s ![] hb (constant (F := Ideal) S_ .f32 0x7F800000#32)))
        (constantI S_ 1 1#1) hr hu ix0 = 1#1) :
    Cert.GcnSpec.IsReal X := fun i =>
  real_of_abs_lt_inf (X i) (Host.reduce_andi_all _ _ hr hu ix0 e i)

variable [Cert.Pre_finite_inputs.Facts]
open Cert.Pre_finite_inputs.Facts

/-- The precondition holds only of arrays of real numbers. -/
theorem isReal_of_pre (A : FVec Ideal Cert.Pre_finite_inputs.S10000x10000 .f32)
    (X : FVec Ideal Cert.Pre_finite_inputs.S10000x128 .f32) (W : FVec Ideal Cert.Pre_finite_inputs.S128x128 .f32)
    (b : FVec Ideal Cert.Pre_finite_inputs.S128 .f32)
    (h : Cert.Pre_finite_inputs.fn (F := Ideal) A X W b = fun _ => 1#1) :
    Cert.GcnSpec.IsReal A ∧ Cert.GcnSpec.IsReal X ∧ Cert.GcnSpec.IsReal W ∧ Cert.GcnSpec.IsReal b := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨isReal_of_all A _ _ _ h1, isReal_of_all X _ _ _ h2, isReal_of_all W _ _ _ h3, isReal_of_all b _ _ _ h4⟩

end Cert.Pre_finite_inputs.Decode

end
-- ==== Proof.lean ====
/-
  The certificate of one graph-convolution layer: a fused two-walk kernel against the plain reference.

  Reference:  out = (D^(-1/2) A D^(-1/2)) X Wᵀ + b,  D the diagonal of A's row sums, a row whose sum is not positive
  contributing the factor 0 (the reference raises the sum to the power −1/2 and replaces infinities by 0; on the
  extended reals that power is 0 at 0 and below, and never infinite on a finite sum, so the factor is the kernel's).
  Kernel:  first walk  H = diag(n) (X Wᵀ),  n = the factors;  second walk  out = diag(n) (A H) + b.
  The two are one function of the arguments by distributivity and reassociation of finite sums of REAL numbers,
  which is where the precondition (every input finite) is used. The three frames: the two kernels' by the body
  obligation proved at every grid point (the same text at both instances), the reference's by its run.
-/
import proofs.«159945_g69672959476101_cont_9to1_m_1023_4_alg».proof.Defs
import proofs.«159945_g69672959476101_cont_9to1_m_1023_4_alg».proof.Proof.Gen.Kernel
import proofs.«159945_g69672959476101_cont_9to1_m_1023_4_alg».proof.Proof.Gen.KernelIdeal
import proofs.«159945_g69672959476101_cont_9to1_m_1023_4_alg».proof.Proof.Gen.ReferenceIdeal
import proofs.«159945_g69672959476101_cont_9to1_m_1023_4_alg».proof.Proof.Gen.Pre_finite_inputs
import proofs.«159945_g69672959476101_cont_9to1_m_1023_4_alg».proof.Proof.Gen.ReferenceIdeal.Run
import proofs.«159945_g69672959476101_cont_9to1_m_1023_4_alg».proof.Proof.Gen.ReferenceIdeal.Read
import proofs.«159945_g69672959476101_cont_9to1_m_1023_4_alg».proof.Proof.BodyObligBits
import proofs.«159945_g69672959476101_cont_9to1_m_1023_4_alg».proof.Proof.BodyObligIdeal
import proofs.«159945_g69672959476101_cont_9to1_m_1023_4_alg».proof.Proof.KernelRunIdeal
import proofs.«159945_g69672959476101_cont_9to1_m_1023_4_alg».proof.Proof.RefIsSpec
import proofs.«159945_g69672959476101_cont_9to1_m_1023_4_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_k : @Cert.frame_Kernel Cert.Kernel.Gen.facts Cert.Pre_finite_inputs.Gen.facts :=
  fun m ρ _ => Cert.Kernel.Body.frame m ρ

/-- So does its idealization. -/
theorem frame_ki : @Cert.frame_KernelIdeal Cert.KernelIdeal.Gen.facts Cert.Pre_finite_inputs.Gen.facts :=
  fun m ρ _ => Cert.KernelIdeal.Body.frame m ρ

/-- The reference's frame is its run with the result dropped. -/
theorem frame_r : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on finite arguments both programs end with the specification of those arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.GcnSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KRun.run m ρ, ?_⟩
  refine (θ_run Cert.ReferenceIdeal.defs _ _).mono (fun _ h c => ⟨?_, (h c).2⟩) (Cert.ReferenceIdeal.Value.run (F := Ideal) m' ρ')
  obtain ⟨hA, hX, hW, hb⟩ := Cert.Pre_finite_inputs.Decode.isReal_of_pre _ _ _ _ (hpre c)
  rw [(h c).1, Cert.ReferenceIdeal.Read.val_main_v16_eq, (hagree c).1, (hagree c).2.1, (hagree c).2.2.1, (hagree c).2.2.2]
  exact Cert.ReferenceIdeal.RefValue.ref_is_spec _ _ _ _ hA hX hW hb

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
